-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64 : Shape := ⟨3, ![16, 64, 64]⟩
abbrev S16x32768x64 : Shape := ⟨3, ![16, 32768, 64]⟩
abbrev S32768 : Shape := ⟨1, ![32768]⟩
abbrev S_ : Shape := ⟨0, ![]⟩

class Facts : Prop where
  bcast_S_S16x64x64 : S_.BroadcastsInDim S16x64x64 (![] : Fin 0 → Fin S16x64x64.rank)
  reducesTo_S16x64x64_S_d0_1_2 : S16x64x64.ReducesTo [0, 1, 2] S_
  h_S_ : 0 < S_.numel
  bcast_S_S16x32768x64 : S_.BroadcastsInDim S16x32768x64 (![] : Fin 0 → Fin S16x32768x64.rank)
  reducesTo_S16x32768x64_S_d0_1_2 : S16x32768x64.ReducesTo [0, 1, 2] S_

variable [Facts]

def fn {F : FTy → Type} [FloatOps F] (main_arg0 : FVec F S16x64x64 .f32) (main_arg1 : FVec F S16x32768x64 .f32) (main_arg2 : FVec F S16x32768x64 .f32) (main_arg3 : IVec S32768 32) : IVec S_ 1 :=
  let main_v0 : FVec F S16x64x64 .f32 := Host.absf main_arg0
  let main_cst : FVec F S_ .f32 := constant S_ .f32 0x7F800000#32
  let main_v1 : FVec F S16x64x64 .f32 := broadcastInDim S16x64x64 ![] bcast_S_S16x64x64 main_cst
  let main_v2 : IVec S16x64x64 1 := cmpf .olt main_v0 main_v1
  let main_c : IVec S_ 1 := constantI S_ 1 1#1
  let main_v3 : IVec S_ 1 := (fun x v => Host.reduce IntOp.andi x v reducesTo_S16x64x64_S_d0_1_2 h_S_) main_v2 main_c
  let main_v4 : FVec F S16x32768x64 .f32 := Host.absf main_arg1
  let main_cst_0 : FVec F S_ .f32 := constant S_ .f32 0x7F800000#32
  let main_v5 : FVec F S16x32768x64 .f32 := broadcastInDim S16x32768x64 ![] bcast_S_S16x32768x64 main_cst_0
  let main_v6 : IVec S16x32768x64 1 := cmpf .olt main_v4 main_v5
  let main_c_1 : IVec S_ 1 := constantI S_ 1 1#1
  let main_v7 : IVec S_ 1 := (fun x v => Host.reduce IntOp.andi x v reducesTo_S16x32768x64_S_d0_1_2 h_S_) main_v6 main_c_1
  let main_v8 : IVec S_ 1 := andi main_v3 main_v7
  let main_v9 : FVec F S16x32768x64 .f32 := Host.absf main_arg2
  let main_cst_2 : FVec F S_ .f32 := constant S_ .f32 0x7F800000#32
  let main_v10 : FVec F S16x32768x64 .f32 := broadcastInDim S16x32768x64 ![] bcast_S_S16x32768x64 main_cst_2
  let main_v11 : IVec S16x32768x64 1 := cmpf .olt main_v9 main_v10
  let main_c_3 : IVec S_ 1 := constantI S_ 1 1#1
  let main_v12 : IVec S_ 1 := (fun x v => Host.reduce IntOp.andi x v reducesTo_S16x32768x64_S_d0_1_2 h_S_) main_v11 main_c_3
  let main_v13 : IVec S_ 1 := andi main_v8 main_v12
  main_v13
-- ==== Kernel.lean ====
abbrev S16x64x64 : Shape := ⟨3, ![16, 64, 64]⟩
abbrev S16x32768x64 : Shape := ⟨3, ![16, 32768, 64]⟩
abbrev S32768 : Shape := ⟨1, ![32768]⟩
abbrev S1x32768 : Shape := ⟨2, ![1, 32768]⟩
abbrev S16x64x32768 : Shape := ⟨3, ![16, 64, 32768]⟩
abbrev S1x64x64 : Shape := ⟨3, ![1, 64, 64]⟩
abbrev S1x32768x64 : Shape := ⟨3, ![1, 32768, 64]⟩
abbrev S1x64x32768 : Shape := ⟨3, ![1, 64, 32768]⟩
abbrev S64x1 : Shape := ⟨2, ![64, 1]⟩
abbrev S64x64 : Shape := ⟨2, ![64, 64]⟩
abbrev S1x4096x64 : Shape := ⟨3, ![1, 4096, 64]⟩
abbrev S4096x64 : Shape := ⟨2, ![4096, 64]⟩
abbrev S1x4096 : Shape := ⟨2, ![1, 4096]⟩
abbrev S4096 : Shape := ⟨1, ![4096]⟩
abbrev S64x4096 : Shape := ⟨2, ![64, 4096]⟩
abbrev S64 : Shape := ⟨1, ![64]⟩
abbrev S1x64x4096 : Shape := ⟨3, ![1, 64, 4096]⟩

abbrev nBuf : Space → Nat
  | .hbm => 7
  | .vmem => 14
  | .smem => 0
  | _ => 0

abbrev bufTy : (tb : Table) → Fin (tcTables nBuf tb) → BufTy
  | .hbm, ⟨0, _⟩ => ⟨S16x64x64, .f32⟩
  | .hbm, ⟨1, _⟩ => ⟨S16x32768x64, .f32⟩
  | .hbm, ⟨2, _⟩ => ⟨S16x32768x64, .f32⟩
  | .hbm, ⟨3, _⟩ => ⟨S32768, .i32⟩
  | .hbm, ⟨4, _⟩ => ⟨S1x32768, .i32⟩
  | .hbm, ⟨5, _⟩ => ⟨S16x64x64, .f32⟩
  | .hbm, ⟨6, _⟩ => ⟨S16x64x32768, .f32⟩
  | .local _ .vmem, ⟨0, _⟩ => ⟨S1x64x64, .f32⟩
  | .local _ .vmem, ⟨1, _⟩ => ⟨S1x64x64, .f32⟩
  | .local _ .vmem, ⟨2, _⟩ => ⟨S1x32768x64, .f32⟩
  | .local _ .vmem, ⟨3, _⟩ => ⟨S1x32768x64, .f32⟩
  | .local _ .vmem, ⟨4, _⟩ => ⟨S1x32768x64, .f32⟩
  | .local _ .vmem, ⟨5, _⟩ => ⟨S1x32768x64, .f32⟩
  | .local _ .vmem, ⟨6, _⟩ => ⟨S1x32768, .i32⟩
  | .local _ .vmem, ⟨7, _⟩ => ⟨S1x64x64, .f32⟩
  | .local _ .vmem, ⟨8, _⟩ => ⟨S1x64x64, .f32⟩
  | .local _ .vmem, ⟨9, _⟩ => ⟨S1x64x32768, .f32⟩
  | .local _ .vmem, ⟨10, _⟩ => ⟨S1x64x32768, .f32⟩
  | .local _ .vmem, ⟨11, _⟩ => ⟨S64x1, .f32⟩
  | .local _ .vmem, ⟨12, _⟩ => ⟨S64x1, .f32⟩
  | .local _ .vmem, ⟨13, _⟩ => ⟨S64x64, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def k0_mult1 : BitVec 32 :=
  let c0_i32_10 : BitVec 32 := 0#32
  let c0_i32 : BitVec 32 := 0#32
  let c1_i32 : BitVec 32 := 1#32
  let v14 : BitVec 32 := Scalar.muli c0_i32 c1_i32
  let v15 : BitVec 32 := Scalar.addi c0_i32_10 v14
  let c4096_i32 : BitVec 32 := 4096#32
  let v16 : BitVec 32 := Scalar.muli v15 c4096_i32
  v16
def k0_off1 (c0_i32 : BitVec 32) : Fin 3 → Nat :=
  let c0_11 : Index := 0#32
  let c0_i32_10 : BitVec 32 := 0#32
  let c1_i32 : BitVec 32 := 1#32
  let v14 : BitVec 32 := Scalar.muli c0_i32 c1_i32
  let v15 : BitVec 32 := Scalar.addi c0_i32_10 v14
  let c4096_i32 : BitVec 32 := 4096#32
  let v16 : BitVec 32 := Scalar.muli v15 c4096_i32
  let v17 : BitVec 32 := v16
  let v18 : Index := Scalar.indexCast v17
  let c0_12 : Index := 0#32
  ![0, v18.toNat, 0]
def k0_off2 (c0_i32 : BitVec 32) : Fin 2 → Nat :=
  let c0_13 : Index := 0#32
  let c0_i32_10 : BitVec 32 := 0#32
  let c1_i32 : BitVec 32 := 1#32
  let v14 : BitVec 32 := Scalar.muli c0_i32 c1_i32
  let v15 : BitVec 32 := Scalar.addi c0_i32_10 v14
  let c4096_i32 : BitVec 32 := 4096#32
  let v16 : BitVec 32 := Scalar.muli v15 c4096_i32
  let v17 : BitVec 32 := v16
  let v21 : Index := Scalar.indexCast v17
  ![0, v21.toNat]
def k0_mult2 : BitVec 32 :=
  let c0_i32_28 : BitVec 32 := 0#32
  let c1_i32_26 : BitVec 32 := 1#32
  let c1_i32_27 : BitVec 32 := 1#32
  let v51 : BitVec 32 := Scalar.muli c1_i32_26 c1_i32_27
  let v52 : BitVec 32 := Scalar.addi c0_i32_28 v51
  let c4096_i32_29 : BitVec 32 := 4096#32
  let v53 : BitVec 32 := Scalar.muli v52 c4096_i32_29
  v53
def k0_mult3 : BitVec 32 :=
  let c0_i32_46 : BitVec 32 := 0#32
  let c2_i32 : BitVec 32 := 2#32
  let c1_i32_45 : BitVec 32 := 1#32
  let v88 : BitVec 32 := Scalar.muli c2_i32 c1_i32_45
  let v89 : BitVec 32 := Scalar.addi c0_i32_46 v88
  let c4096_i32_47 : BitVec 32 := 4096#32
  let v90 : BitVec 32 := Scalar.muli v89 c4096_i32_47
  v90
def k0_mult4 : BitVec 32 :=
  let c0_i32_64 : BitVec 32 := 0#32
  let c3_i32 : BitVec 32 := 3#32
  let c1_i32_63 : BitVec 32 := 1#32
  let v125 : BitVec 32 := Scalar.muli c3_i32 c1_i32_63
  let v126 : BitVec 32 := Scalar.addi c0_i32_64 v125
  let c4096_i32_65 : BitVec 32 := 4096#32
  let v127 : BitVec 32 := Scalar.muli v126 c4096_i32_65
  v127
def k0_mult5 : BitVec 32 :=
  let c0_i32_82 : BitVec 32 := 0#32
  let c4_i32 : BitVec 32 := 4#32
  let c1_i32_81 : BitVec 32 := 1#32
  let v162 : BitVec 32 := Scalar.muli c4_i32 c1_i32_81
  let v163 : BitVec 32 := Scalar.addi c0_i32_82 v162
  let c4096_i32_83 : BitVec 32 := 4096#32
  let v164 : BitVec 32 := Scalar.muli v163 c4096_i32_83
  v164
def k0_mult6 : BitVec 32 :=
  let c0_i32_100 : BitVec 32 := 0#32
  let c5_i32 : BitVec 32 := 5#32
  let c1_i32_99 : BitVec 32 := 1#32
  let v199 : BitVec 32 := Scalar.muli c5_i32 c1_i32_99
  let v200 : BitVec 32 := Scalar.addi c0_i32_100 v199
  let c4096_i32_101 : BitVec 32 := 4096#32
  let v201 : BitVec 32 := Scalar.muli v200 c4096_i32_101
  v201
def k0_mult7 : BitVec 32 :=
  let c0_i32_118 : BitVec 32 := 0#32
  let c6_i32 : BitVec 32 := 6#32
  let c1_i32_117 : BitVec 32 := 1#32
  let v236 : BitVec 32 := Scalar.muli c6_i32 c1_i32_117
  let v237 : BitVec 32 := Scalar.addi c0_i32_118 v236
  let c4096_i32_119 : BitVec 32 := 4096#32
  let v238 : BitVec 32 := Scalar.muli v237 c4096_i32_119
  v238
def k0_mult8 : BitVec 32 :=
  let c0_i32_136 : BitVec 32 := 0#32
  let c7_i32 : BitVec 32 := 7#32
  let c1_i32_135 : BitVec 32 := 1#32
  let v273 : BitVec 32 := Scalar.muli c7_i32 c1_i32_135
  let v274 : BitVec 32 := Scalar.addi c0_i32_136 v273
  let c4096_i32_137 : BitVec 32 := 4096#32
  let v275 : BitVec 32 := Scalar.muli v274 c4096_i32_137
  v275
def k0_mult9 : BitVec 32 :=
  let c0_i32_159 : BitVec 32 := 0#32
  let c0_i32_157 : BitVec 32 := 0#32
  let c1_i32_158 : BitVec 32 := 1#32
  let v312 : BitVec 32 := Scalar.muli c0_i32_157 c1_i32_158
  let v313 : BitVec 32 := Scalar.addi c0_i32_159 v312
  let c4096_i32_160 : BitVec 32 := 4096#32
  let v314 : BitVec 32 := Scalar.muli v313 c4096_i32_160
  v314
def k0_off3 (c0_i32_157 : BitVec 32) : Fin 3 → Nat :=
  let c0_168 : Index := 0#32
  let c0_169 : Index := 0#32
  let c0_i32_159 : BitVec 32 := 0#32
  let c1_i32_158 : BitVec 32 := 1#32
  let v312 : BitVec 32 := Scalar.muli c0_i32_157 c1_i32_158
  let v313 : BitVec 32 := Scalar.addi c0_i32_159 v312
  let c4096_i32_160 : BitVec 32 := 4096#32
  let v314 : BitVec 32 := Scalar.muli v313 c4096_i32_160
  let v315 : BitVec 32 := v314
  let v337 : Index := Scalar.indexCast v315
  ![0, 0, v337.toNat]
def k0_mult10 : BitVec 32 :=
  let c0_i32_177 : BitVec 32 := 0#32
  let c1_i32_175 : BitVec 32 := 1#32
  let c1_i32_176 : BitVec 32 := 1#32
  let v349 : BitVec 32 := Scalar.muli c1_i32_175 c1_i32_176
  let v350 : BitVec 32 := Scalar.addi c0_i32_177 v349
  let c4096_i32_178 : BitVec 32 := 4096#32
  let v351 : BitVec 32 := Scalar.muli v350 c4096_i32_178
  v351
def k0_mult11 : BitVec 32 :=
  let c0_i32_195 : BitVec 32 := 0#32
  let c2_i32_193 : BitVec 32 := 2#32
  let c1_i32_194 : BitVec 32 := 1#32
  let v386 : BitVec 32 := Scalar.muli c2_i32_193 c1_i32_194
  let v387 : BitVec 32 := Scalar.addi c0_i32_195 v386
  let c4096_i32_196 : BitVec 32 := 4096#32
  let v388 : BitVec 32 := Scalar.muli v387 c4096_i32_196
  v388
def k0_mult12 : BitVec 32 :=
  let c0_i32_213 : BitVec 32 := 0#32
  let c3_i32_211 : BitVec 32 := 3#32
  let c1_i32_212 : BitVec 32 := 1#32
  let v423 : BitVec 32 := Scalar.muli c3_i32_211 c1_i32_212
  let v424 : BitVec 32 := Scalar.addi c0_i32_213 v423
  let c4096_i32_214 : BitVec 32 := 4096#32
  let v425 : BitVec 32 := Scalar.muli v424 c4096_i32_214
  v425
def k0_mult13 : BitVec 32 :=
  let c0_i32_231 : BitVec 32 := 0#32
  let c4_i32_229 : BitVec 32 := 4#32
  let c1_i32_230 : BitVec 32 := 1#32
  let v460 : BitVec 32 := Scalar.muli c4_i32_229 c1_i32_230
  let v461 : BitVec 32 := Scalar.addi c0_i32_231 v460
  let c4096_i32_232 : BitVec 32 := 4096#32
  let v462 : BitVec 32 := Scalar.muli v461 c4096_i32_232
  v462
def k0_mult14 : BitVec 32 :=
  let c0_i32_249 : BitVec 32 := 0#32
  let c5_i32_247 : BitVec 32 := 5#32
  let c1_i32_248 : BitVec 32 := 1#32
  let v497 : BitVec 32 := Scalar.muli c5_i32_247 c1_i32_248
  let v498 : BitVec 32 := Scalar.addi c0_i32_249 v497
  let c4096_i32_250 : BitVec 32 := 4096#32
  let v499 : BitVec 32 := Scalar.muli v498 c4096_i32_250
  v499
def k0_mult15 : BitVec 32 :=
  let c0_i32_267 : BitVec 32 := 0#32
  let c6_i32_265 : BitVec 32 := 6#32
  let c1_i32_266 : BitVec 32 := 1#32
  let v534 : BitVec 32 := Scalar.muli c6_i32_265 c1_i32_266
  let v535 : BitVec 32 := Scalar.addi c0_i32_267 v534
  let c4096_i32_268 : BitVec 32 := 4096#32
  let v536 : BitVec 32 := Scalar.muli v535 c4096_i32_268
  v536
def k0_mult16 : BitVec 32 :=
  let c0_i32_285 : BitVec 32 := 0#32
  let c7_i32_283 : BitVec 32 := 7#32
  let c1_i32_284 : BitVec 32 := 1#32
  let v571 : BitVec 32 := Scalar.muli c7_i32_283 c1_i32_284
  let v572 : BitVec 32 := Scalar.addi c0_i32_285 v571
  let c4096_i32_286 : BitVec 32 := 4096#32
  let v573 : BitVec 32 := Scalar.muli v572 c4096_i32_286
  v573
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32768x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32768_S1x32768 : S32768.ShapeCasts S1x32768
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  h_S1x4096x64 : 0 < S1x4096x64.numel
  shapeCasts_S1x4096x64_S4096x64 : S1x4096x64.ShapeCasts S4096x64
  h_S1x4096 : 0 < S1x4096.numel
  shapeCasts_S1x4096_S4096 : S1x4096.ShapeCasts S4096
  iota_S64x4096_d0_w32 : S64x4096.Iotas .tc 32 [0]
  shapeCasts_S4096_S1x4096 : S4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  h_S1x64x4096 : 0 < S1x64x4096.numel
  shapeCasts_S1x64x4096_S64x4096 : S1x64x4096.ShapeCasts S64x4096
  shapeCasts_S64x4096_S1x64x4096 : S64x4096.ShapeCasts S1x64x4096
  bitsLt_bf16_f32 : FTy.bits .bf16 < FTy.bits .f32
  shapeCasts_S64x64_S1x64x64 : S64x64.ShapeCasts S1x64x64
  dot_S64x64_S4096x64_S64x4096_1_1_0_0_n_n_wf : DotDims.WF S64x64 S4096x64 S64x4096 [1] [1] [0] [0] [] []
  dot_S64x4096_S4096x64_S64x64_1_0_0_1_n_n_wf : DotDims.WF S64x4096 S4096x64 S64x64 [1] [0] [0] [1] [] []
  hrank0 : 0 < grid0.rank
  k0_mult1_dvd : 4096 ∣ k0_mult1.toNat
  k0_off1_inb : ∀ (r : Fin 8), ∀ a, (k0_off1 (BitVec.ofNat 32 r.val)) a + S1x4096x64.size a ≤ S1x32768x64.size a
  k0_off2_inb : ∀ (r : Fin 8), ∀ a, (k0_off2 (BitVec.ofNat 32 r.val)) a + S1x4096.size a ≤ S1x32768.size a
  k0_mult2_dvd : 4096 ∣ k0_mult2.toNat
  k0_mult3_dvd : 4096 ∣ k0_mult3.toNat
  k0_mult4_dvd : 4096 ∣ k0_mult4.toNat
  k0_mult5_dvd : 4096 ∣ k0_mult5.toNat
  k0_mult6_dvd : 4096 ∣ k0_mult6.toNat
  k0_mult7_dvd : 4096 ∣ k0_mult7.toNat
  k0_mult8_dvd : 4096 ∣ k0_mult8.toNat
  k0_mult9_dvd : 4096 ∣ k0_mult9.toNat
  k0_off3_inb : ∀ (r : Fin 8), ∀ a, (k0_off3 (BitVec.ofNat 32 r.val)) a + S1x64x4096.size a ≤ S1x64x32768.size a
  k0_mult10_dvd : 4096 ∣ k0_mult10.toNat
  k0_mult11_dvd : 4096 ∣ k0_mult11.toNat
  k0_mult12_dvd : 4096 ∣ k0_mult12.toNat
  k0_mult13_dvd : 4096 ∣ k0_mult13.toNat
  k0_mult14_dvd : 4096 ∣ k0_mult14.toNat
  k0_mult15_dvd : 4096 ∣ k0_mult15.toNat
  k0_mult16_dvd : 4096 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64.size a ≤ S16x64x64.size a
  hwx0_0 : ∀ i : grid0.Coords, EltTy.bits .f32 = 32 ∨ (Rect.block (s := S16x64x64) S1x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768x64.size a ≤ S16x32768x64.size a
  hwx0_1 : ∀ i : grid0.Coords, EltTy.bits .f32 = 32 ∨ (Rect.block (s := S16x32768x64) S1x32768x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768x64.size a ≤ S16x32768x64.size a
  hwx0_2 : ∀ i : grid0.Coords, EltTy.bits .f32 = 32 ∨ (Rect.block (s := S16x32768x64) S1x32768x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x32768.size a
  hwx0_3 : ∀ i : grid0.Coords, EltTy.bits .i32 = 32 ∨ (Rect.block (s := S1x32768) S1x32768.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S16x64x64.size a
  hwx0_4 : ∀ i : grid0.Coords, EltTy.bits .f32 = 32 ∨ (Rect.block (s := S16x64x64) S1x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x32768.size a ≤ S16x64x32768.size a
  hwx0_5 : ∀ i : grid0.Coords, EltTy.bits .f32 = 32 ∨ (Rect.block (s := S16x64x32768) S1x64x32768.size (cc0_transform_5 i) (hinb0_5 i)).WholeWords (EltTy.packing .f32)

variable [Facts₀]

def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf

abbrev win0_0 : Pipeline.Window sig grid0 :=
  Pipeline.Window.ofSpec (Memref.whole main_arg0) S1x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32768x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32768x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x64x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x64 : Shape := ⟨3, ![16, 64, 64]⟩
abbrev S16x32768x64 : Shape := ⟨3, ![16, 32768, 64]⟩
abbrev S32768 : Shape := ⟨1, ![32768]⟩
abbrev S1x32768 : Shape := ⟨2, ![1, 32768]⟩
abbrev S64 : Shape := ⟨1, ![64]⟩
abbrev S64x1 : Shape := ⟨2, ![64, 1]⟩
abbrev S64x32768 : Shape := ⟨2, ![64, 32768]⟩
abbrev S16x64x32768 : Shape := ⟨3, ![16, 64, 32768]⟩
abbrev S1x64x32768 : Shape := ⟨3, ![1, 64, 32768]⟩
abbrev S_ : Shape := ⟨0, ![]⟩
abbrev S16x64 : Shape := ⟨2, ![16, 64]⟩
abbrev S16x64x1 : Shape := ⟨3, ![16, 64, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S16x32768x64, .f32⟩
  | .hbm, ⟨2, _⟩ => ⟨S16x32768x64, .f32⟩
  | .hbm, ⟨3, _⟩ => ⟨S32768, .i32⟩
  | .hbm, ⟨4, _⟩ => ⟨S1x32768, .i32⟩
  | .hbm, ⟨5, _⟩ => ⟨S64, .i32⟩
  | .hbm, ⟨6, _⟩ => ⟨S64x1, .i32⟩
  | .hbm, ⟨7, _⟩ => ⟨S64x32768, .i32⟩
  | .hbm, ⟨8, _⟩ => ⟨S64x32768, .i32⟩
  | .hbm, ⟨9, _⟩ => ⟨S64x32768, .i1⟩
  | .hbm, ⟨10, _⟩ => ⟨S16x64x32768, .f32⟩
  | .hbm, ⟨11, _⟩ => ⟨S1x64x32768, .i1⟩
  | .hbm, ⟨12, _⟩ => ⟨S_, .f32⟩
  | .hbm, ⟨13, _⟩ => ⟨S_, .f32⟩
  | .hbm, ⟨14, _⟩ => ⟨S16x64x32768, .i1⟩
  | .hbm, ⟨15, _⟩ => ⟨S16x64x32768, .f32⟩
  | .hbm, ⟨16, _⟩ => ⟨S16x64x32768, .f32⟩
  | .hbm, ⟨17, _⟩ => ⟨S_, .f32⟩
  | .hbm, ⟨18, _⟩ => ⟨S16x64, .f32⟩
  | .hbm, ⟨19, _⟩ => ⟨S_, .f32⟩
  | .hbm, ⟨20, _⟩ => ⟨S16x64, .f32⟩
  | .hbm, ⟨21, _⟩ => ⟨S16x64, .f32⟩
  | .hbm, ⟨22, _⟩ => ⟨S16x64x1, .f32⟩
  | .hbm, ⟨23, _⟩ => ⟨S16x64x32768, .f32⟩
  | .hbm, ⟨24, _⟩ => ⟨S16x64x32768, .f32⟩
  | .hbm, ⟨25, _⟩ => ⟨S16x64x32768, .f32⟩
  | .hbm, ⟨26, _⟩ => ⟨S_, .f32⟩
  | .hbm, ⟨27, _⟩ => ⟨S16x64, .f32⟩
  | .hbm, ⟨28, _⟩ => ⟨S16x64x1, .f32⟩
  | .hbm, ⟨29, _⟩ => ⟨S16x64x32768, .f32⟩
  | .hbm, ⟨30, _⟩ => ⟨S16x64x32768, .f32⟩
  | .hbm, ⟨31, _⟩ => ⟨S16x64x64, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S32768_S1x32768_1 : S32768.BroadcastsInDim S1x32768 (![1] : Fin 1 → Fin S1x32768.rank)
  bcast_S64_S64x1_0 : S64.BroadcastsInDim S64x1 (![0] : Fin 1 → Fin S64x1.rank)
  bcast_S1x32768_S64x32768_0_1 : S1x32768.BroadcastsInDim S64x32768 (![0, 1] : Fin 2 → Fin S64x32768.rank)
  bcast_S64x1_S64x32768_0_1 : S64x1.BroadcastsInDim S64x32768 (![0, 1] : Fin 2 → Fin S64x32768.rank)
  bcast_S64x32768_S1x64x32768_1_2 : S64x32768.BroadcastsInDim S1x64x32768 (![1, 2] : Fin 2 → Fin S1x64x32768.rank)
  bcast_S1x64x32768_S16x64x32768_0_1_2 : S1x64x32768.BroadcastsInDim S16x64x32768 (![0, 1, 2] : Fin 3 → Fin S16x64x32768.rank)
  bcast_S_S16x64x32768 : S_.BroadcastsInDim S16x64x32768 (![] : Fin 0 → Fin S16x64x32768.rank)
  reducesTo_S16x64x32768_S16x64_d2 : S16x64x32768.ReducesTo [2] S16x64
  h_S_ : 0 < S_.numel
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x32768_0_1_2 : S16x64x1.BroadcastsInDim S16x64x32768 (![0, 1, 2] : Fin 3 → Fin S16x64x32768.rank)
  dot_S16x64x64_S16x32768x64_S16x64x32768_2_2_1_1_0_0_wf : DotDims.WF S16x64x64 S16x32768x64 S16x64x32768 [2] [2] [1] [1] [0] [0]
  dot_S16x64x32768_S16x32768x64_S16x64x64_2_1_1_2_0_0_wf : DotDims.WF S16x64x32768 S16x32768x64 S16x64x64 [2] [1] [1] [2] [0] [0]

variable [Facts₀]

def dot_S16x64x64_S16x32768x64_S16x64x32768_2_2_1_1_0_0 : DotDims S16x64x64 S16x32768x64 S16x64x32768 where
  lhsContracting := [2]
  rhsContracting := [2]
  lhsNonContracting := [1]
  rhsNonContracting := [1]
  lhsBatch := [0]
  rhsBatch := [0]
  wf := dot_S16x64x64_S16x32768x64_S16x64x32768_2_2_1_1_0_0_wf
def dot_S16x64x32768_S16x32768x64_S16x64x64_2_1_1_2_0_0 : DotDims S16x64x32768 S16x32768x64 S16x64x64 where
  lhsContracting := [2]
  rhsContracting := [1]
  lhsNonContracting := [1]
  rhsNonContracting := [2]
  lhsBatch := [0]
  rhsBatch := [0]
  wf := dot_S16x64x32768_S16x32768x64_S16x64x64_2_1_1_2_0_0_wf

class Facts : Prop extends Facts₀ where

variable [Facts]
-- ==== Proof.Steps.lean ====
/-
  The kernel body's arithmetic, chunk by chunk, as a few vector functions: the masked scores of a chunk of 4096
  edges (query rows against the chunk's key rows, `⊥`-filled off the row's segment), the chunk's row maxima, one
  step of the running maximum and of the rescaled running sum, the attention of a chunk from the final statistics,
  and one step of the output accumulator.
-/
import proofs.«141897_j76733885710388_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F] [Named F]

/-- The masked scores of a chunk: `q · kcᵀ` where the edge's segment id is the row's index, the fill elsewhere. -/
def scores (q : FVec F S64x64 .f32) (kc : Vec F S1x4096x64 .f32) (bc : Vec F S1x4096 .i32) : FVec F S64x4096 .f32 :=
  k0_pay11 q kc bc

/-- The row maxima of a chunk of masked scores, from `-∞`, as a column. -/
def chunkMaxV (X : FVec F S64x4096 .f32) : FVec F S64x1 .f32 :=
  shapeCast S64x1 (multiReduction .maximumf [1] S64 X 0xFF800000#32 reduces_S64x4096_S64 (.inl rfl) rfl) shapeCasts_S64_S64x1

/-- One step of the running maximum. -/
def mStep (m : FVec F S64x1 .f32) (X : FVec F S64x4096 .f32) : FVec F S64x1 .f32 := maximumf m (chunkMaxV X)

/-- One step of the running sum: rescaled by the exponential of the maximum's increase, plus the chunk's exponentials. -/
def lStep (m l : FVec F S64x1 .f32) (X : FVec F S64x4096 .f32) : FVec F S64x1 .f32 :=
  addf (mulf l (exp (subf m (mStep m X))))
    (shapeCast S64x1 (multiReduction .add [1] S64
      (exp (subf X (broadcastTo S64x4096 (mStep m X) broadcasts_S64x1_S64x4096))) 0x00000000#32 reduces_S64x4096_S64 (.inl rfl) rfl)
      shapeCasts_S64_S64x1)

/-- The attention of a chunk from the final maximum and sum. -/
def attnChunk (m l : FVec F S64x1 .f32) (X : FVec F S64x4096 .f32) : FVec F S64x4096 .f32 :=
  divf (exp (subf X (broadcastTo S64x4096 m broadcasts_S64x1_S64x4096))) (broadcastTo S64x4096 l broadcasts_S64x1_S64x4096)

/-- One step of the output accumulator: plus the chunk's attention times the chunk's value rows. -/
def accStep (acc : FVec F S64x64 .f32) (A : FVec F S64x4096 .f32) (vc : Vec F S1x4096x64 .f32) : FVec F S64x64 .f32 :=
  addf acc (matmul dot_S64x4096_S4096x64_S64x64_1_0_0_1_n_n none (truncf .bf16 A bitsLt_bf16_f32)
    (truncf .bf16 (shapeCast S4096x64 vc shapeCasts_S1x4096x64_S4096x64) bitsLt_bf16_f32) (constant S64x64 .f32 0x00000000#32))

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer after a list of stores whose LAST store wrote the whole buffer reads that store's payload. -/
theorem readCov_cons_whole {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

end Cert.KernelIdeal.Steps

end
-- ==== Proof.Words1.lean ====
/-
  What the kernel body leaves, as closed terms of the four input blocks: the masked scores of each of the eight
  chunks, the running maximum and running sum after each chunk of the first pass, and that each load of the two
  statistics' scratch buffers during the run reads exactly the closed term of the chunk before it.
-/
import proofs.«141897_j76733885710388_2_alg».proof.Proof.Steps

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F] [Named F]

theorem inb3 (o : Nat) (h : o + 4096 ≤ 32768) :
    ∀ a : Fin 3, (![0, o, 0] : Fin 3 → Nat) a + S1x4096x64.size a ≤ S1x32768x64.size a := by
  intro a; fin_cases a
  · show 0 + 1 ≤ 1; omega
  · show o + 4096 ≤ 32768; exact h
  · show 0 + 64 ≤ 64; omega

theorem inb2 (o : Nat) (h : o + 4096 ≤ 32768) :
    ∀ a : Fin 2, (![0, o] : Fin 2 → Nat) a + S1x4096.size a ≤ S1x32768.size a := by
  intro a; fin_cases a
  · show 0 + 1 ≤ 1; omega
  · show o + 4096 ≤ 32768; exact h

/-- Rows `o … o + 4095` of a key or value block. -/
def rowsAt (x : Vec F S1x32768x64 .f32) (o : Nat) (h : o + 4096 ≤ 32768) : Vec F S1x4096x64 .f32 :=
  View.ld x (Rect.unit (s := S1x32768x64) ![0, o, 0] S1x4096x64.size (inb3 o h))

/-- Entries `o … o + 4095` of the segment ids. -/
def segAt (x : Vec F S1x32768 .i32) (o : Nat) (h : o + 4096 ≤ 32768) : Vec F S1x4096 .i32 :=
  View.ld x (Rect.unit (s := S1x32768) ![0, o] S1x4096.size (inb2 o h))

variable (x0 : Vec F S1x64x64 .f32) (x1 x2 : Vec F S1x32768x64 .f32) (x3 : Vec F S1x32768 .i32)

/-- The query block as a matrix. -/
def Q : FVec F S64x64 .f32 := k0_pay5 x0

/-- The masked scores of chunk 0 (edges 0 … 4095). -/
def X0 : FVec F S64x4096 .f32 := scores (Q x0) (rowsAt x1 0 (by omega)) (segAt x3 0 (by omega))
/-- The masked scores of chunk 1 (edges 4096 … 8191). -/
def X1 : FVec F S64x4096 .f32 := scores (Q x0) (rowsAt x1 4096 (by omega)) (segAt x3 4096 (by omega))
/-- The masked scores of chunk 2 (edges 8192 … 12287). -/
def X2 : FVec F S64x4096 .f32 := scores (Q x0) (rowsAt x1 8192 (by omega)) (segAt x3 8192 (by omega))
/-- The masked scores of chunk 3 (edges 12288 … 16383). -/
def X3 : FVec F S64x4096 .f32 := scores (Q x0) (rowsAt x1 12288 (by omega)) (segAt x3 12288 (by omega))
/-- The masked scores of chunk 4 (edges 16384 … 20479). -/
def X4 : FVec F S64x4096 .f32 := scores (Q x0) (rowsAt x1 16384 (by omega)) (segAt x3 16384 (by omega))
/-- The masked scores of chunk 5 (edges 20480 … 24575). -/
def X5 : FVec F S64x4096 .f32 := scores (Q x0) (rowsAt x1 20480 (by omega)) (segAt x3 20480 (by omega))
/-- The masked scores of chunk 6 (edges 24576 … 28671). -/
def X6 : FVec F S64x4096 .f32 := scores (Q x0) (rowsAt x1 24576 (by omega)) (segAt x3 24576 (by omega))
/-- The masked scores of chunk 7 (edges 28672 … 32767). -/
def X7 : FVec F S64x4096 .f32 := scores (Q x0) (rowsAt x1 28672 (by omega)) (segAt x3 28672 (by omega))

/-- The running maximum and running sum before the first chunk: `-∞` and `0`. -/
def M0 : FVec F S64x1 .f32 := k0_pay2
def L0 : FVec F S64x1 .f32 := k0_pay3
/-- … after chunk 0. -/
def M1 : FVec F S64x1 .f32 := mStep (M0) (X0 x0 x1 x3)
def L1 : FVec F S64x1 .f32 := lStep (M0) (L0) (X0 x0 x1 x3)
/-- … after chunk 1. -/
def M2 : FVec F S64x1 .f32 := mStep (M1 x0 x1 x3) (X1 x0 x1 x3)
def L2 : FVec F S64x1 .f32 := lStep (M1 x0 x1 x3) (L1 x0 x1 x3) (X1 x0 x1 x3)
/-- … after chunk 2. -/
def M3 : FVec F S64x1 .f32 := mStep (M2 x0 x1 x3) (X2 x0 x1 x3)
def L3 : FVec F S64x1 .f32 := lStep (M2 x0 x1 x3) (L2 x0 x1 x3) (X2 x0 x1 x3)
/-- … after chunk 3. -/
def M4 : FVec F S64x1 .f32 := mStep (M3 x0 x1 x3) (X3 x0 x1 x3)
def L4 : FVec F S64x1 .f32 := lStep (M3 x0 x1 x3) (L3 x0 x1 x3) (X3 x0 x1 x3)
/-- … after chunk 4. -/
def M5 : FVec F S64x1 .f32 := mStep (M4 x0 x1 x3) (X4 x0 x1 x3)
def L5 : FVec F S64x1 .f32 := lStep (M4 x0 x1 x3) (L4 x0 x1 x3) (X4 x0 x1 x3)
/-- … after chunk 5. -/
def M6 : FVec F S64x1 .f32 := mStep (M5 x0 x1 x3) (X5 x0 x1 x3)
def L6 : FVec F S64x1 .f32 := lStep (M5 x0 x1 x3) (L5 x0 x1 x3) (X5 x0 x1 x3)
/-- … after chunk 6. -/
def M7 : FVec F S64x1 .f32 := mStep (M6 x0 x1 x3) (X6 x0 x1 x3)
def L7 : FVec F S64x1 .f32 := lStep (M6 x0 x1 x3) (L6 x0 x1 x3) (X6 x0 x1 x3)
/-- … after chunk 7. -/
def M8 : FVec F S64x1 .f32 := mStep (M7 x0 x1 x3) (X7 x0 x1 x3)
def L8 : FVec F S64x1 .f32 := lStep (M7 x0 x1 x3) (L7 x0 x1 x3) (X7 x0 x1 x3)

variable (c : Dev nD) (arg1 : Memref sig .tc .vmem S1x64x64 .f32) (harg1 : arg1.IsWhole) (arg2 : Memref sig .tc .vmem S1x32768x64 .f32) (harg2 : arg2.IsWhole) (arg3 : Memref sig .tc .vmem S1x32768x64 .f32) (harg3 : arg3.IsWhole) (arg4 : Memref sig .tc .vmem S1x32768 .i32) (harg4 : arg4.IsWhole) (arg7 : Memref sig .tc .vmem S64x1 .f32) (arg8 : Memref sig .tc .vmem S64x1 .f32) (arg9 : Memref sig .tc .vmem S64x64 .f32)

theorem w_m0 : kernelRun0_A.sl.v33 (F := F) c arg7 = M0 := by
  unfold kernelRun0_A.sl.v33 kernelRun0_A.sl.HS0_1
  rw [View.readCov_unit_zero _ hz2]; rfl

theorem w_l0 : kernelRun0_A.sl.v40 (F := F) c arg8 = L0 := by
  unfold kernelRun0_A.sl.v40 kernelRun0_A.sl.HS1_1
  rw [View.readCov_unit_zero _ hz2]; rfl

theorem w_m1 : kernelRun0_A.sl.v70 c arg1 harg1 arg2 harg2 arg4 harg4 arg7 x0 x1 x3 = M1 x0 x1 x3 := by
  unfold kernelRun0_A.sl.v70 kernelRun0_A.sl.HS0_2
  rw [readCov_cons_whole _ hz2]
  unfold kernelRun0_A.sl.r_2
  simp only [w_m0, View.readAt_eq_ld, harg1.read_unread, harg2.read_unread, harg4.read_unread, View.ld_unit_zero (S := S1x64x64) hz3, k0_pay10, shapeCast_self]
  rfl

theorem w_l1 : kernelRun0_A.sl.v77 c arg1 harg1 arg2 harg2 arg4 harg4 arg7 arg8 x0 x1 x3 = L1 x0 x1 x3 := by
  unfold kernelRun0_A.sl.v77 kernelRun0_A.sl.HS1_2
  rw [readCov_cons_whole _ hz2]
  unfold kernelRun0_A.sl.r_1 kernelRun0_A.sl.r_2
  simp only [w_m0, w_l0, View.readAt_eq_ld, harg1.read_unread, harg2.read_unread, harg4.read_unread, View.ld_unit_zero (S := S1x64x64) hz3, k0_pay9, shapeCast_self]
  rfl

theorem w_m2 : kernelRun0_A.sl.v107 c arg1 harg1 arg2 harg2 arg4 harg4 arg7 x0 x1 x3 = M2 x0 x1 x3 := by
  unfold kernelRun0_A.sl.v107 kernelRun0_A.sl.HS0_3
  rw [readCov_cons_whole _ hz2]
  unfold kernelRun0_A.sl.r_4 kernelRun0_A.sl.r
  simp only [w_m1 x0 x1 x3, View.readAt_eq_ld, harg1.read_unread, harg2.read_unread, harg4.read_unread, View.ld_unit_zero (S := S1x64x64) hz3, k0_pay15, shapeCast_self]
  rfl

theorem w_l2 : kernelRun0_A.sl.v114 c arg1 harg1 arg2 harg2 arg4 harg4 arg7 arg8 x0 x1 x3 = L2 x0 x1 x3 := by
  unfold kernelRun0_A.sl.v114 kernelRun0_A.sl.HS1_3
  rw [readCov_cons_whole _ hz2]
  unfold kernelRun0_A.sl.r_3 kernelRun0_A.sl.r_4 kernelRun0_A.sl.r
  simp only [w_m1 x0 x1 x3, w_l1 x0 x1 x3, View.readAt_eq_ld, harg1.read_unread, harg2.read_unread, harg4.read_unread, View.ld_unit_zero (S := S1x64x64) hz3, k0_pay14, shapeCast_self]
  rfl

theorem w_m3 : kernelRun0_A.sl.v144 c arg1 harg1 arg2 harg2 arg4 harg4 arg7 x0 x1 x3 = M3 x0 x1 x3 := by
  unfold kernelRun0_A.sl.v144 kernelRun0_A.sl.HS0_4
  rw [readCov_cons_whole _ hz2]
  unfold kernelRun0_A.sl.r_6 kernelRun0_A.sl.r
  simp only [w_m2 x0 x1 x3, View.readAt_eq_ld, harg1.read_unread, harg2.read_unread, harg4.read_unread, View.ld_unit_zero (S := S1x64x64) hz3, k0_pay20, shapeCast_self]
  rfl

theorem w_l3 : kernelRun0_A.sl.v151 c arg1 harg1 arg2 harg2 arg4 harg4 arg7 arg8 x0 x1 x3 = L3 x0 x1 x3 := by
  unfold kernelRun0_A.sl.v151 kernelRun0_A.sl.HS1_4
  rw [readCov_cons_whole _ hz2]
  unfold kernelRun0_A.sl.r_5 kernelRun0_A.sl.r_6 kernelRun0_A.sl.r_7 kernelRun0_A.sl.r
  simp only [w_m2 x0 x1 x3, w_l2 x0 x1 x3, View.readAt_eq_ld, harg1.read_unread, harg2.read_unread, harg4.read_unread, View.ld_unit_zero (S := S1x64x64) hz3, k0_pay19, shapeCast_self]
  rfl

theorem w_m4 : kernelRun0_A.sl.v181 c arg1 harg1 arg2 harg2 arg4 harg4 arg7 x0 x1 x3 = M4 x0 x1 x3 := by
  unfold kernelRun0_A.sl.v181 kernelRun0_A.sl.HS0_5
  rw [readCov_cons_whole _ hz2]
  unfold kernelRun0_A.sl.r_9 kernelRun0_A.sl.r
  simp only [w_m3 x0 x1 x3, View.readAt_eq_ld, harg1.read_unread, harg2.read_unread, harg4.read_unread, View.ld_unit_zero (S := S1x64x64) hz3, k0_pay26, shapeCast_self]
  rfl

theorem w_l4 : kernelRun0_A.sl.v188 c arg1 harg1 arg2 harg2 arg4 harg4 arg7 arg8 x0 x1 x3 = L4 x0 x1 x3 := by
  unfold kernelRun0_A.sl.v188 kernelRun0_A.sl.HS1_5
  rw [readCov_cons_whole _ hz2]
  unfold kernelRun0_A.sl.r_8 kernelRun0_A.sl.r_10 kernelRun0_A.sl.r_11 kernelRun0_A.sl.r
  simp only [w_m3 x0 x1 x3, w_l3 x0 x1 x3, View.readAt_eq_ld, harg1.read_unread, harg2.read_unread, harg4.read_unread, View.ld_unit_zero (S := S1x64x64) hz3, k0_pay25, shapeCast_self]
  rfl

theorem w_m5 : kernelRun0_A.sl.v218 c arg1 harg1 arg2 harg2 arg4 harg4 arg7 x0 x1 x3 = M5 x0 x1 x3 := by
  unfold kernelRun0_A.sl.v218 kernelRun0_A.sl.HS0_6
  rw [readCov_cons_whole _ hz2]
  unfold kernelRun0_A.sl.r_12 kernelRun0_A.sl.r
  simp only [w_m4 x0 x1 x3, View.readAt_eq_ld, harg1.read_unread, harg2.read_unread, harg4.read_unread, View.ld_unit_zero (S := S1x64x64) hz3, k0_pay32, shapeCast_self]
  rfl

theorem w_l5 : kernelRun0_A.sl.v225 c arg1 harg1 arg2 harg2 arg4 harg4 arg7 arg8 x0 x1 x3 = L5 x0 x1 x3 := by
  unfold kernelRun0_A.sl.v225 kernelRun0_A.sl.HS1_6
  rw [readCov_cons_whole _ hz2]
  unfold kernelRun0_A.sl.r_13 kernelRun0_A.sl.r_14 kernelRun0_A.sl.r
  simp only [w_m4 x0 x1 x3, w_l4 x0 x1 x3, View.readAt_eq_ld, harg1.read_unread, harg2.read_unread, harg4.read_unread, View.ld_unit_zero (S := S1x64x64) hz3, k0_pay31, shapeCast_self]
  rfl

theorem w_m6 : kernelRun0_A.sl.v255 c arg1 harg1 arg2 harg2 arg4 harg4 arg7 x0 x1 x3 = M6 x0 x1 x3 := by
  unfold kernelRun0_A.sl.v255 kernelRun0_A.sl.HS0_7
  rw [readCov_cons_whole _ hz2]
  unfold kernelRun0_A.sl.r_15 kernelRun0_A.sl.r
  simp only [w_m5 x0 x1 x3, View.readAt_eq_ld, harg1.read_unread, harg2.read_unread, harg4.read_unread, View.ld_unit_zero (S := S1x64x64) hz3, k0_pay38, shapeCast_self]
  rfl

theorem w_l6 : kernelRun0_A.sl.v262 c arg1 harg1 arg2 harg2 arg4 harg4 arg7 arg8 x0 x1 x3 = L6 x0 x1 x3 := by
  unfold kernelRun0_A.sl.v262 kernelRun0_A.sl.HS1_7
  rw [readCov_cons_whole _ hz2]
  unfold kernelRun0_A.sl.r_16 kernelRun0_A.sl.r_17 kernelRun0_A.sl.r
  simp only [w_m5 x0 x1 x3, w_l5 x0 x1 x3, View.readAt_eq_ld, harg1.read_unread, harg2.read_unread, harg4.read_unread, View.ld_unit_zero (S := S1x64x64) hz3, k0_pay37, shapeCast_self]
  rfl

theorem w_m7 : kernelRun0_A.sl.v292 c arg1 harg1 arg2 harg2 arg4 harg4 arg7 x0 x1 x3 = M7 x0 x1 x3 := by
  unfold kernelRun0_A.sl.v292 kernelRun0_A.sl.HS0_8
  rw [readCov_cons_whole _ hz2]
  unfold kernelRun0_A.sl.r_18 kernelRun0_A.sl.r
  simp only [w_m6 x0 x1 x3, View.readAt_eq_ld, harg1.read_unread, harg2.read_unread, harg4.read_unread, View.ld_unit_zero (S := S1x64x64) hz3, k0_pay44, shapeCast_self]
  rfl

theorem w_l7 : kernelRun0_A.sl.v299 c arg1 harg1 arg2 harg2 arg4 harg4 arg7 arg8 x0 x1 x3 = L7 x0 x1 x3 := by
  unfold kernelRun0_A.sl.v299 kernelRun0_A.sl.HS1_8
  rw [readCov_cons_whole _ hz2]
  unfold kernelRun0_A.sl.r_19 kernelRun0_A.sl.r_20 kernelRun0_A.sl.r
  simp only [w_m6 x0 x1 x3, w_l6 x0 x1 x3, View.readAt_eq_ld, harg1.read_unread, harg2.read_unread, harg4.read_unread, View.ld_unit_zero (S := S1x64x64) hz3, k0_pay43, shapeCast_self]
  rfl

theorem w_m8 : kernelRun0_A.sl.v310 c arg1 harg1 arg2 harg2 arg4 harg4 arg7 x0 x1 x3 = M8 x0 x1 x3 := by
  unfold kernelRun0_A.sl.v310 kernelRun0_A.sl.HS0_9
  rw [readCov_cons_whole _ hz2]
  unfold kernelRun0_A.sl.r_21 kernelRun0_A.sl.r
  simp only [w_m7 x0 x1 x3, View.readAt_eq_ld, harg1.read_unread, harg2.read_unread, harg4.read_unread, View.ld_unit_zero (S := S1x64x64) hz3, k0_pay50, shapeCast_self]
  rfl

theorem w_l8 : kernelRun0_A.sl.v311 c arg1 harg1 arg2 harg2 arg4 harg4 arg7 arg8 x0 x1 x3 = L8 x0 x1 x3 := by
  unfold kernelRun0_A.sl.v311 kernelRun0_A.sl.HS1_9
  rw [readCov_cons_whole _ hz2]
  unfold kernelRun0_A.sl.r_22 kernelRun0_A.sl.r_23 kernelRun0_A.sl.r
  simp only [w_m7 x0 x1 x3, w_l7 x0 x1 x3, View.readAt_eq_ld, harg1.read_unread, harg2.read_unread, harg4.read_unread, View.ld_unit_zero (S := S1x64x64) hz3, k0_pay49, shapeCast_self]
  rfl

end Cert.KernelIdeal.Steps

end
-- ==== Proof.Words2.lean ====
/-
  The second pass as closed terms of the four input blocks: the attention of each chunk from the final maximum and
  sum, the output accumulator after each chunk, that each load of the accumulator's scratch buffer reads the closed
  term of the chunk before it, and what the body leaves in the two output blocks: the last accumulator, and the
  eight attention chunks side by side.
-/
import proofs.«141897_j76733885710388_2_alg».proof.Proof.Words1

set_option maxRecDepth 16384

noncomputable section

open Idealize.ShloMosaic Idealize.ShloMosaic.TcCoe Idealize.SL.Sem

namespace Cert.KernelIdeal.Steps

open Cert.KernelIdeal Cert.KernelIdeal.Gen

variable {F : FTy → Type} [FloatOps F] [Named F]

theorem inbO (o : Nat) (h : o + 4096 ≤ 32768) :
    ∀ a : Fin 3, (![0, 0, o] : Fin 3 → Nat) a + S1x64x4096.size a ≤ S1x64x32768.size a := by
  intro a; fin_cases a
  · show 0 + 1 ≤ 1; omega
  · show 0 + 64 ≤ 64; omega
  · show o + 4096 ≤ 32768; exact h

variable (x0 : Vec F S1x64x64 .f32) (x1 x2 : Vec F S1x32768x64 .f32) (x3 : Vec F S1x32768 .i32)

/-- The attention of chunk 0. -/
def P0 : FVec F S64x4096 .f32 := attnChunk (M8 x0 x1 x3) (L8 x0 x1 x3) (X0 x0 x1 x3)
/-- The attention of chunk 1. -/
def P1 : FVec F S64x4096 .f32 := attnChunk (M8 x0 x1 x3) (L8 x0 x1 x3) (X1 x0 x1 x3)
/-- The attention of chunk 2. -/
def P2 : FVec F S64x4096 .f32 := attnChunk (M8 x0 x1 x3) (L8 x0 x1 x3) (X2 x0 x1 x3)
/-- The attention of chunk 3. -/
def P3 : FVec F S64x4096 .f32 := attnChunk (M8 x0 x1 x3) (L8 x0 x1 x3) (X3 x0 x1 x3)
/-- The attention of chunk 4. -/
def P4 : FVec F S64x4096 .f32 := attnChunk (M8 x0 x1 x3) (L8 x0 x1 x3) (X4 x0 x1 x3)
/-- The attention of chunk 5. -/
def P5 : FVec F S64x4096 .f32 := attnChunk (M8 x0 x1 x3) (L8 x0 x1 x3) (X5 x0 x1 x3)
/-- The attention of chunk 6. -/
def P6 : FVec F S64x4096 .f32 := attnChunk (M8 x0 x1 x3) (L8 x0 x1 x3) (X6 x0 x1 x3)
/-- The attention of chunk 7. -/
def P7 : FVec F S64x4096 .f32 := attnChunk (M8 x0 x1 x3) (L8 x0 x1 x3) (X7 x0 x1 x3)

/-- The output accumulator before the first chunk: zero. -/
def A0 : FVec F S64x64 .f32 := k0_pay4
/-- … after chunk 0. -/
def A1 : FVec F S64x64 .f32 := accStep (A0) (P0 x0 x1 x3) (rowsAt x2 0 (by omega))
/-- … after chunk 1. -/
def A2 : FVec F S64x64 .f32 := accStep (A1 x0 x1 x2 x3) (P1 x0 x1 x3) (rowsAt x2 4096 (by omega))
/-- … after chunk 2. -/
def A3 : FVec F S64x64 .f32 := accStep (A2 x0 x1 x2 x3) (P2 x0 x1 x3) (rowsAt x2 8192 (by omega))
/-- … after chunk 3. -/
def A4 : FVec F S64x64 .f32 := accStep (A3 x0 x1 x2 x3) (P3 x0 x1 x3) (rowsAt x2 12288 (by omega))
/-- … after chunk 4. -/
def A5 : FVec F S64x64 .f32 := accStep (A4 x0 x1 x2 x3) (P4 x0 x1 x3) (rowsAt x2 16384 (by omega))
/-- … after chunk 5. -/
def A6 : FVec F S64x64 .f32 := accStep (A5 x0 x1 x2 x3) (P5 x0 x1 x3) (rowsAt x2 20480 (by omega))
/-- … after chunk 6. -/
def A7 : FVec F S64x64 .f32 := accStep (A6 x0 x1 x2 x3) (P6 x0 x1 x3) (rowsAt x2 24576 (by omega))
/-- … after chunk 7. -/
def A8 : FVec F S64x64 .f32 := accStep (A7 x0 x1 x2 x3) (P7 x0 x1 x3) (rowsAt x2 28672 (by omega))

/-- The eight stores into the attention block, last first: chunk `k`'s attention at columns `4096·k …`. -/
def pieces5 : List (View.Piece (Elt F) S1x64x32768 .f32) :=
  [⟨Rect.unit (s := S1x64x32768) ![0, 0, 28672] S1x64x4096.size (inbO 28672 (by omega)), shapeCast S1x64x4096 (P7 x0 x1 x3) shapeCasts_S64x4096_S1x64x4096⟩,
   ⟨Rect.unit (s := S1x64x32768) ![0, 0, 24576] S1x64x4096.size (inbO 24576 (by omega)), shapeCast S1x64x4096 (P6 x0 x1 x3) shapeCasts_S64x4096_S1x64x4096⟩,
   ⟨Rect.unit (s := S1x64x32768) ![0, 0, 20480] S1x64x4096.size (inbO 20480 (by omega)), shapeCast S1x64x4096 (P5 x0 x1 x3) shapeCasts_S64x4096_S1x64x4096⟩,
   ⟨Rect.unit (s := S1x64x32768) ![0, 0, 16384] S1x64x4096.size (inbO 16384 (by omega)), shapeCast S1x64x4096 (P4 x0 x1 x3) shapeCasts_S64x4096_S1x64x4096⟩,
   ⟨Rect.unit (s := S1x64x32768) ![0, 0, 12288] S1x64x4096.size (inbO 12288 (by omega)), shapeCast S1x64x4096 (P3 x0 x1 x3) shapeCasts_S64x4096_S1x64x4096⟩,
   ⟨Rect.unit (s := S1x64x32768) ![0, 0, 8192] S1x64x4096.size (inbO 8192 (by omega)), shapeCast S1x64x4096 (P2 x0 x1 x3) shapeCasts_S64x4096_S1x64x4096⟩,
   ⟨Rect.unit (s := S1x64x32768) ![0, 0, 4096] S1x64x4096.size (inbO 4096 (by omega)), shapeCast S1x64x4096 (P1 x0 x1 x3) shapeCasts_S64x4096_S1x64x4096⟩,
   ⟨Rect.unit (s := S1x64x32768) ![0, 0, 0] S1x64x4096.size (inbO 0 (by omega)), shapeCast S1x64x4096 (P0 x0 x1 x3) shapeCasts_S64x4096_S1x64x4096⟩]

variable (c : Dev nD) (arg1 : Memref sig .tc .vmem S1x64x64 .f32) (harg1 : arg1.IsWhole) (arg2 : Memref sig .tc .vmem S1x32768x64 .f32) (harg2 : arg2.IsWhole) (arg3 : Memref sig .tc .vmem S1x32768x64 .f32) (harg3 : arg3.IsWhole) (arg4 : Memref sig .tc .vmem S1x32768 .i32) (harg4 : arg4.IsWhole) (arg7 : Memref sig .tc .vmem S64x1 .f32) (arg8 : Memref sig .tc .vmem S64x1 .f32) (arg9 : Memref sig .tc .vmem S64x64 .f32)

theorem w_a0 : kernelRun0_A.sl.v344 (F := F) c arg9 = A0 := by
  unfold kernelRun0_A.sl.v344 kernelRun0_A.sl.HS2_1
  rw [View.readCov_unit_zero _ hz2]; rfl

theorem w_a1 : kernelRun0_A.sl.v381 c arg1 harg1 arg2 harg2 arg3 harg3 arg4 harg4 arg7 arg8 arg9 x0 x1 x2 x3 = A1 x0 x1 x2 x3 := by
  unfold kernelRun0_A.sl.v381 kernelRun0_A.sl.HS2_2
  rw [readCov_cons_whole _ hz2]
  unfold kernelRun0_A.sl.r_24 kernelRun0_A.sl.r_25 kernelRun0_A.sl.r
  simp only [w_m8 x0 x1 x3, w_l8 x0 x1 x3, w_a0, View.readAt_eq_ld, harg1.read_unread, harg2.read_unread, harg3.read_unread, harg4.read_unread, View.ld_unit_zero (S := S1x64x64) hz3, k0_pay54, shapeCast_self]
  rfl

theorem w_a2 : kernelRun0_A.sl.v418 c arg1 harg1 arg2 harg2 arg3 harg3 arg4 harg4 arg7 arg8 arg9 x0 x1 x2 x3 = A2 x0 x1 x2 x3 := by
  unfold kernelRun0_A.sl.v418 kernelRun0_A.sl.HS2_3
  rw [readCov_cons_whole _ hz2]
  unfold kernelRun0_A.sl.r_26 kernelRun0_A.sl.r_27 kernelRun0_A.sl.r
  simp only [w_m8 x0 x1 x3, w_l8 x0 x1 x3, w_a1 x0 x1 x2 x3, View.readAt_eq_ld, harg1.read_unread, harg2.read_unread, harg3.read_unread, harg4.read_unread, View.ld_unit_zero (S := S1x64x64) hz3, k0_pay58, shapeCast_self]
  rfl

theorem w_a3 : kernelRun0_A.sl.v455 c arg1 harg1 arg2 harg2 arg3 harg3 arg4 harg4 arg7 arg8 arg9 x0 x1 x2 x3 = A3 x0 x1 x2 x3 := by
  unfold kernelRun0_A.sl.v455 kernelRun0_A.sl.HS2_4
  rw [readCov_cons_whole _ hz2]
  unfold kernelRun0_A.sl.r_29 kernelRun0_A.sl.r_30 kernelRun0_A.sl.r
  simp only [w_m8 x0 x1 x3, w_l8 x0 x1 x3, w_a2 x0 x1 x2 x3, View.readAt_eq_ld, harg1.read_unread, harg2.read_unread, harg3.read_unread, harg4.read_unread, View.ld_unit_zero (S := S1x64x64) hz3, k0_pay63, shapeCast_self]
  rfl

theorem w_a4 : kernelRun0_A.sl.v492 c arg1 harg1 arg2 harg2 arg3 harg3 arg4 harg4 arg7 arg8 arg9 x0 x1 x2 x3 = A4 x0 x1 x2 x3 := by
  unfold kernelRun0_A.sl.v492 kernelRun0_A.sl.HS2_5
  rw [readCov_cons_whole _ hz2]
  unfold kernelRun0_A.sl.r_31 kernelRun0_A.sl.r
  simp only [w_m8 x0 x1 x3, w_l8 x0 x1 x3, w_a3 x0 x1 x2 x3, View.readAt_eq_ld, harg1.read_unread, harg2.read_unread, harg3.read_unread, harg4.read_unread, View.ld_unit_zero (S := S1x64x64) hz3, k0_pay67, shapeCast_self]
  rfl

theorem w_a5 : kernelRun0_A.sl.v529 c arg1 harg1 arg2 harg2 arg3 harg3 arg4 harg4 arg7 arg8 arg9 x0 x1 x2 x3 = A5 x0 x1 x2 x3 := by
  unfold kernelRun0_A.sl.v529 kernelRun0_A.sl.HS2_6
  rw [readCov_cons_whole _ hz2]
  unfold kernelRun0_A.sl.r_32 kernelRun0_A.sl.r
  simp only [w_m8 x0 x1 x3, w_l8 x0 x1 x3, w_a4 x0 x1 x2 x3, View.readAt_eq_ld, harg1.read_unread, harg2.read_unread, harg3.read_unread, harg4.read_unread, View.ld_unit_zero (S := S1x64x64) hz3, k0_pay71, shapeCast_self]
  rfl

theorem w_a6 : kernelRun0_A.sl.v566 c arg1 harg1 arg2 harg2 arg3 harg3 arg4 harg4 arg7 arg8 arg9 x0 x1 x2 x3 = A6 x0 x1 x2 x3 := by
  unfold kernelRun0_A.sl.v566 kernelRun0_A.sl.HS2_7
  rw [readCov_cons_whole _ hz2]
  unfold kernelRun0_A.sl.r_33 kernelRun0_A.sl.r
  simp only [w_m8 x0 x1 x3, w_l8 x0 x1 x3, w_a5 x0 x1 x2 x3, View.readAt_eq_ld, harg1.read_unread, harg2.read_unread, harg3.read_unread, harg4.read_unread, View.ld_unit_zero (S := S1x64x64) hz3, k0_pay75, shapeCast_self]
  rfl

theorem w_a7 : kernelRun0_A.sl.v603 c arg1 harg1 arg2 harg2 arg3 harg3 arg4 harg4 arg7 arg8 arg9 x0 x1 x2 x3 = A7 x0 x1 x2 x3 := by
  unfold kernelRun0_A.sl.v603 kernelRun0_A.sl.HS2_8
  rw [readCov_cons_whole _ hz2]
  unfold  kernelRun0_A.sl.r
  simp only [w_m8 x0 x1 x3, w_l8 x0 x1 x3, w_a6 x0 x1 x2 x3, View.readAt_eq_ld, harg1.read_unread, harg2.read_unread, harg3.read_unread, harg4.read_unread, View.ld_unit_zero (S := S1x64x64) hz3, k0_pay78, shapeCast_self]
  rfl

theorem w_a8 : kernelRun0_A.sl.v608 c arg1 harg1 arg2 harg2 arg3 harg3 arg4 harg4 arg7 arg8 arg9 x0 x1 x2 x3 = A8 x0 x1 x2 x3 := by
  unfold kernelRun0_A.sl.v608 kernelRun0_A.sl.HS2_9
  rw [readCov_cons_whole _ hz2]
  unfold  kernelRun0_A.sl.r
  simp only [w_m8 x0 x1 x3, w_l8 x0 x1 x3, w_a7 x0 x1 x2 x3, View.readAt_eq_ld, harg1.read_unread, harg2.read_unread, harg3.read_unread, harg4.read_unread, View.ld_unit_zero (S := S1x64x64) hz3, k0_pay81, shapeCast_self]
  rfl

variable (i : grid0.Coords) (arg5 : Memref sig .tc .vmem S1x64x64 .f32) (harg5 : arg5.IsWhole) (arg6 : Memref sig .tc .vmem S1x64x32768 .f32) (harg6 : arg6.IsWhole) (harg7 : arg7.IsWhole) (harg8 : arg8.IsWhole) (harg9 : arg9.IsWhole)

/-- What the body leaves in the output block: the last accumulator. -/
theorem out4_eq : out0_A_4 c i arg1 harg1 arg2 harg2 arg3 harg3 arg4 harg4 arg5 harg5 arg6 harg6 arg7 harg7 arg8 harg8 arg9 harg9 x0 x1 x2 x3 = shapeCast S1x64x64 (A8 x0 x1 x2 x3) shapeCasts_S64x64_S1x64x64 := by
  unfold out0_A_4
  rw [View.read_writes_eq_canon _ _ _ (cover0_A_4 c i arg1 harg1 arg2 harg2 arg3 harg3 arg4 harg4 arg5 harg5 arg6 harg6 arg7 harg7 arg8 harg8 arg9 harg9 x0 x1 x2 x3)]
  unfold kernelRun0_A
  dsimp only
  rw [View.canon_unit_zero hz3, w_a8 x0 x1 x2 x3]
  rfl

/-- What the body leaves in the attention block: the eight chunks' attention, each at its columns. -/
theorem out5_eq : out0_A_5 c i arg1 harg1 arg2 harg2 arg3 harg3 arg4 harg4 arg5 harg5 arg6 harg6 arg7 harg7 arg8 harg8 arg9 harg9 x0 x1 x2 x3 = View.canon (pieces5 x0 x1 x3) := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3)]
  unfold kernelRun0_A
  dsimp only
  unfold kernelRun0_A.sl.r_28 kernelRun0_A.sl.r_25 kernelRun0_A.sl.r
  simp only [w_m8 x0 x1 x3, w_l8 x0 x1 x3, View.readAt_eq_ld, harg1.read_unread, harg2.read_unread, harg4.read_unread, View.ld_unit_zero (S := S1x64x64) hz3]
  rfl

/-- The stores the run found for the attention block are the eight chunk stores. -/
theorem runPieces5_eq : (kernelRun0_A c i arg1 harg1 arg2 harg2 arg3 harg3 arg4 harg4 arg5 harg5 arg6 harg6 arg7 harg7 arg8 harg8 arg9 harg9 x0 x1 x2 x3).2.1 = pieces5 x0 x1 x3 := by
  unfold kernelRun0_A
  dsimp only
  unfold kernelRun0_A.sl.r_28 kernelRun0_A.sl.r_25 kernelRun0_A.sl.r
  simp only [w_m8 x0 x1 x3, w_l8 x0 x1 x3, View.readAt_eq_ld, harg1.read_unread, harg2.read_unread, harg4.read_unread, View.ld_unit_zero (S := S1x64x64) hz3]
  rfl

include c i arg1 harg1 arg2 harg2 arg3 harg3 arg4 harg4 arg5 harg5 arg6 harg6 arg7 harg7 arg8 harg8 arg9 harg9 x2 in
/-- Every entry of the attention block lies in one of the eight stores' rectangles. -/
theorem pieces5_cover (y : S1x64x32768.Idx) : ∃ p ∈ pieces5 x0 x1 x3, y ∈ p.1.set := by
  have h := cover0_A_5 c i arg1 harg1 arg2 harg2 arg3 harg3 arg4 harg4 arg5 harg5 arg6 harg6 arg7 harg7 arg8 harg8 arg9 harg9 x0 x1 x2 x3 y
  rwa [runPieces5_eq x0 x1 x2 x3] at h

end Cert.KernelIdeal.Steps

end
-- ==== Proof.OnlineSoftmax.lean ====
/-
  The online evaluation of a masked softmax's two statistics, on the extended reals.

  A row of masked scores is cut into chunks. A running maximum `m` starts at `⊥` and a running sum `l` at `0`;
  a chunk `xc` replaces them by `m' = max m (max xc)` and `l · exp (m - m') + ∑ j, exp (xc j - m')`.  When no
  entry is `⊤`, after the last chunk `m` is the row's least upper bound and `l` is the sum over the whole row of
  `exp (x - m)`: rescaling by `exp (m - m')` turns each `exp (x - m)` into `exp (x - m')`, for real entries by
  `exp a · exp b = exp (a + b)` and for masked entries (`⊥`) because `exp ⊥ = 0`; a sum of such nonnegative terms
  distributes over the factor.  A row all of whose entries are `⊥` ends at `m = ⊥`, `l = 0` by the same laws
  (`⊥ - ⊥ = ⊥` on the extended reals).
-/
import Idealize.ShloMosaic.PureOps.Ideal
import Mathlib.Data.EReal.Operations
import Mathlib.Data.Finset.Fold
import Mathlib.Algebra.BigOperators.Fin
import Mathlib.Algebra.Order.BigOperators.Group.List

noncomputable section

namespace OnlineSoftmax

open Idealize.ShloMosaic

/-- The exponential of an extended real is nonnegative. -/
theorem exp_nonneg (x : EReal) : 0 ≤ Ideal.exp x := by
  induction x with
  | bot => simp
  | coe r => rw [Ideal.exp_coe]; exact_mod_cast (Real.exp_pos r).le
  | top => simp

/-- Rescaling: for `x ≤ m ≤ m'` with `m'` not `⊤`, `exp (x - m) · exp (m - m') = exp (x - m')`. -/
theorem exp_rescale {x m m' : EReal} (hxm : x ≤ m) (hmm : m ≤ m') (hm' : m' ≠ ⊤) :
    Ideal.exp (x - m) * Ideal.exp (m - m') = Ideal.exp (x - m') := by
  induction m' with
  | top => exact absurd rfl hm'
  | bot =>
    obtain rfl : m = ⊥ := le_bot_iff.mp hmm
    obtain rfl : x = ⊥ := le_bot_iff.mp hxm
    simp [EReal.bot_sub]
  | coe r' =>
    induction m with
    | top => exact absurd (top_le_iff.mp hmm) (EReal.coe_ne_top r')
    | bot =>
      obtain rfl : x = ⊥ := le_bot_iff.mp hxm
      simp [EReal.bot_sub]
    | coe r =>
      induction x with
      | top => exact absurd (top_le_iff.mp hxm) (EReal.coe_ne_top r)
      | bot => simp [EReal.bot_sub]
      | coe y =>
        rw [← EReal.coe_sub, ← EReal.coe_sub, ← EReal.coe_sub, Ideal.exp_coe, Ideal.exp_coe, Ideal.exp_coe,
          ← EReal.coe_mul, ← Real.exp_add]
        congr 2; ring

/-- A finite sum of nonnegative extended reals distributes over a right factor. -/
theorem sum_mul_of_nonneg {ι : Type*} (s : Finset ι) (a : ι → EReal) (ha : ∀ i ∈ s, 0 ≤ a i) (e : EReal) :
    (∑ i ∈ s, a i) * e = ∑ i ∈ s, a i * e := by
  classical
  revert ha
  refine Finset.induction_on s (fun _ => by simp) (fun i s hi ih ha => ?_)
  rw [Finset.sum_insert hi, Finset.sum_insert hi,
    EReal.right_distrib_of_nonneg (ha i (Finset.mem_insert_self i s))
      (Finset.sum_nonneg fun j hj => ha j (Finset.mem_insert_of_mem hj)),
    ih fun j hj => ha j (Finset.mem_insert_of_mem hj)]

variable {κ : Type*} [Fintype κ]

/-- The maximum of a chunk, from `⊥`. -/
def chunkMax (xc : κ → EReal) : EReal := Finset.univ.fold max ⊥ xc

/-- The sum over a chunk of `exp (x - m)`. -/
def chunkSum (m : EReal) (xc : κ → EReal) : EReal := ∑ j, Ideal.exp (xc j - m)

/-- One chunk of the online evaluation, on the pair (running maximum, running sum). -/
def step (s : EReal × EReal) (xc : κ → EReal) : EReal × EReal :=
  (max s.1 (chunkMax xc), s.2 * Ideal.exp (s.1 - max s.1 (chunkMax xc)) + chunkSum (max s.1 (chunkMax xc)) xc)

/-- The online evaluation over a list of chunks, from `(⊥, 0)`. -/
def run (L : List (κ → EReal)) : EReal × EReal := L.foldl step (⊥, 0)

theorem run_append_singleton (L : List (κ → EReal)) (xc : κ → EReal) : run (L ++ [xc]) = step (run L) xc := by
  unfold run; rw [List.foldl_append]; rfl

theorem chunkSum_nonneg (m : EReal) (xc : κ → EReal) : 0 ≤ chunkSum m xc :=
  Finset.sum_nonneg fun j _ => exp_nonneg _

theorem le_chunkMax (xc : κ → EReal) (j : κ) : xc j ≤ chunkMax xc :=
  (Finset.le_fold_max _).mpr (Or.inr ⟨j, Finset.mem_univ j, le_rfl⟩)

theorem chunkMax_le {xc : κ → EReal} {M : EReal} (h : ∀ j, xc j ≤ M) : chunkMax xc ≤ M :=
  (Finset.fold_max_le _).mpr ⟨bot_le, fun j _ => h j⟩

theorem chunkMax_ne_top {xc : κ → EReal} (h : ∀ j, xc j ≠ ⊤) : chunkMax xc ≠ ⊤ :=
  ne_of_lt ((Finset.fold_max_lt _).mpr ⟨bot_lt_top, fun j _ => lt_top_iff_ne_top.mpr (h j)⟩)

/-- Rescaling a chunk's sum. -/
theorem chunkSum_rescale {xc : κ → EReal} {m m' : EReal} (hx : ∀ j, xc j ≤ m) (hmm : m ≤ m') (hm' : m' ≠ ⊤) :
    chunkSum m xc * Ideal.exp (m - m') = chunkSum m' xc := by
  unfold chunkSum
  rw [sum_mul_of_nonneg _ _ (fun j _ => exp_nonneg _)]
  exact Finset.sum_congr rfl fun j _ => exp_rescale (hx j) hmm hm'

/-- Rescaling the sums of a list of chunks. -/
theorem listSum_rescale (L : List (κ → EReal)) {m m' : EReal} (hx : ∀ xc ∈ L, ∀ j, xc j ≤ m) (hmm : m ≤ m')
    (hm' : m' ≠ ⊤) : (L.map (chunkSum m)).sum * Ideal.exp (m - m') = (L.map (chunkSum m')).sum := by
  induction L with
  | nil => simp
  | cons xc L ih =>
    rw [List.map_cons, List.sum_cons, List.map_cons, List.sum_cons,
      EReal.right_distrib_of_nonneg (chunkSum_nonneg m xc)
        (List.sum_nonneg fun a ha => by
          obtain ⟨y, _, rfl⟩ := List.mem_map.mp ha; exact chunkSum_nonneg m y),
      chunkSum_rescale (hx xc (List.mem_cons_self ..)) hmm hm',
      ih fun y hy => hx y (List.mem_cons_of_mem _ hy)]

/-- What the online evaluation holds after a list of chunks none of whose entries is `⊤`: the running maximum is the
    least upper bound of all entries (and not `⊤`), the running sum the sum of `exp (x - maximum)` over them. -/
structure Inv (L : List (κ → EReal)) (s : EReal × EReal) : Prop where
  ub : ∀ xc ∈ L, ∀ j, xc j ≤ s.1
  lub : ∀ M, (∀ xc ∈ L, ∀ j, xc j ≤ M) → s.1 ≤ M
  ne_top : s.1 ≠ ⊤
  sum : s.2 = (L.map (chunkSum s.1)).sum

theorem inv_run (L : List (κ → EReal)) : (∀ xc ∈ L, ∀ j, xc j ≠ ⊤) → Inv L (run L) := by
  induction L using List.reverseRecOn with
  | nil => intro _; exact ⟨by simp, fun _ _ => bot_le, by simp [run], by simp [run]⟩
  | append_singleton L xc ih =>
    intro hL
    have ih := ih fun y hy => hL y (List.mem_append_left _ hy)
    have hxc : ∀ j, xc j ≠ ⊤ := hL xc (List.mem_append_right _ (List.mem_singleton_self xc))
    rw [run_append_singleton]
    have hm' : max (run L).1 (chunkMax xc) ≠ ⊤ :=
      ne_of_lt (max_lt (lt_top_iff_ne_top.mpr ih.ne_top) (lt_top_iff_ne_top.mpr (chunkMax_ne_top hxc)))
    refine ⟨fun y hy j => ?_, fun M hM => ?_, hm', ?_⟩
    · rcases List.mem_append.mp hy with hy | hy
      · exact (ih.ub y hy j).trans (le_max_left _ _)
      · obtain rfl := List.mem_singleton.mp hy
        exact (le_chunkMax y j).trans (le_max_right _ _)
    · exact max_le (ih.lub M fun y hy => hM y (List.mem_append_left _ hy))
        (chunkMax_le (hM xc (List.mem_append_right _ (List.mem_singleton_self xc))))
    · show (run L).2 * Ideal.exp ((run L).1 - max (run L).1 (chunkMax xc)) + chunkSum (max (run L).1 (chunkMax xc)) xc
          = ((L ++ [xc]).map (chunkSum (max (run L).1 (chunkMax xc)))).sum
      rw [ih.sum, listSum_rescale L ih.ub (le_max_left _ _) hm', List.map_append, List.sum_append, List.map_cons,
        List.map_nil, List.sum_cons, List.sum_nil, add_zero]

end OnlineSoftmax

end
-- ==== Proof.BlockValue.lean ====
/-
  The kernel body's vector functions read at an index, on the extended reals: the two matrix products as sums over
  the contracted axis, the masked scores of a chunk entry by entry, and the steps of the running maximum and running
  sum at a row — which are one step of the online evaluation of that row —, the attention of a chunk and the
  accumulator's step entry by entry.
-/
import proofs.«141897_j76733885710388_2_alg».proof.Proof.Steps
import proofs.«141897_j76733885710388_2_alg».proof.Proof.OnlineSoftmax
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open Idealize.ShloMosaic Idealize.ShloMosaic.TcCoe Idealize.SL.Sem

namespace Cert.KernelIdeal.BlockValue

open Cert.KernelIdeal Cert.KernelIdeal.Gen Cert.KernelIdeal.Steps Idealize.ShloMosaic.ValueIdx

/-- The fill of the masked scores denotes `⊥`: the certificate's table names the literal so. -/
theorem fill_eq : Named.named (F := Ideal) Cert.KernelIdeal.κ "neg_big" (φ := .f32) 0xFF333332#32 = (⊥ : EReal) :=
  IdealRules.named_const.ideal_named_scalar _ _ _ _ rfl

theorem neg_inf : Ideal.ofBits .f32 0xFF800000#32 = (⊥ : EReal) := by simp [Ideal.ofBits, Ideal.ieee]

theorem qk_lhs_0 (i : S64x4096.Idx) (q : dot_S64x64_S4096x64_S64x4096_1_1_0_0_n_n.contr.Idx) : (dot_S64x64_S4096x64_S64x4096_1_1_0_0_n_n.lhsIdx i q 0).val = (i 0).val := by
  unfold DotDims.lhsIdx
  rw [dif_neg (show ¬(0 : Fin S64x64.rank) ∈ dot_S64x64_S4096x64_S64x4096_1_1_0_0_n_n.lhsBatch by decide),
    dif_pos (show (0 : Fin S64x64.rank) ∈ dot_S64x64_S4096x64_S64x4096_1_1_0_0_n_n.lhsNonContracting by decide)]
  rfl
theorem qk_lhs_1 (i : S64x4096.Idx) (q : dot_S64x64_S4096x64_S64x4096_1_1_0_0_n_n.contr.Idx) : (dot_S64x64_S4096x64_S64x4096_1_1_0_0_n_n.lhsIdx i q 1).val = (q ⟨0, by decide⟩).val :=
  dot_S64x64_S4096x64_S64x4096_1_1_0_0_n_n.lhsIdx_val_of_single rfl i q
theorem qk_rhs_0 (i : S64x4096.Idx) (q : dot_S64x64_S4096x64_S64x4096_1_1_0_0_n_n.contr.Idx) : (dot_S64x64_S4096x64_S64x4096_1_1_0_0_n_n.rhsIdx i q 0).val = (i 1).val := by
  unfold DotDims.rhsIdx
  rw [dif_neg (show ¬(0 : Fin S4096x64.rank) ∈ dot_S64x64_S4096x64_S64x4096_1_1_0_0_n_n.rhsBatch by decide),
    dif_pos (show (0 : Fin S4096x64.rank) ∈ dot_S64x64_S4096x64_S64x4096_1_1_0_0_n_n.rhsNonContracting by decide)]
  rfl
theorem qk_rhs_1 (i : S64x4096.Idx) (q : dot_S64x64_S4096x64_S64x4096_1_1_0_0_n_n.contr.Idx) : (dot_S64x64_S4096x64_S64x4096_1_1_0_0_n_n.rhsIdx i q 1).val = (q ⟨0, by decide⟩).val :=
  dot_S64x64_S4096x64_S64x4096_1_1_0_0_n_n.rhsIdx_val_of_single rfl i q

/-- Query rows against key rows: entry `(b, j)` is the inner product over the 64 features. -/
theorem qk_apply (q : FVec Ideal S64x64 .f32) (k : FVec Ideal S4096x64 .f32) (b : Fin 64) (j : Fin 4096) :
    matmul dot_S64x64_S4096x64_S64x4096_1_1_0_0_n_n (some .fp32) q k (constant S64x4096 .f32 0x00000000#32) (ix2 b j)
      = ∑ d : Fin 64, q (ix2 b d) * k (ix2 j d) := by
  simp only [matmul]
  rw [Ideal.matmul_constant_zero_apply, ← Equiv.sum_comp (contrEquiv1 dot_S64x64_S4096x64_S64x4096_1_1_0_0_n_n 64 rfl rfl).symm]
  refine Finset.sum_congr rfl fun d _ => ?_
  have hk := contrEquiv1_symm_val dot_S64x64_S4096x64_S64x4096_1_1_0_0_n_n 64 rfl rfl d
  have el : dot_S64x64_S4096x64_S64x4096_1_1_0_0_n_n.lhsIdx (ix2 b j) ((contrEquiv1 dot_S64x64_S4096x64_S64x4096_1_1_0_0_n_n 64 rfl rfl).symm d) = ix2 b d :=
    funext fun a => Fin.ext (by
      match a with
      | ⟨0, _⟩ => exact qk_lhs_0 _ _
      | ⟨1, _⟩ => exact (qk_lhs_1 _ _).trans hk)
  have er : dot_S64x64_S4096x64_S64x4096_1_1_0_0_n_n.rhsIdx (ix2 b j) ((contrEquiv1 dot_S64x64_S4096x64_S64x4096_1_1_0_0_n_n 64 rfl rfl).symm d) = ix2 j d :=
    funext fun a => Fin.ext (by
      match a with
      | ⟨0, _⟩ => exact qk_rhs_0 _ _
      | ⟨1, _⟩ => exact (qk_rhs_1 _ _).trans hk)
  rw [el, er]

theorem pv_lhs_0 (i : S64x64.Idx) (q : dot_S64x4096_S4096x64_S64x64_1_0_0_1_n_n.contr.Idx) : (dot_S64x4096_S4096x64_S64x64_1_0_0_1_n_n.lhsIdx i q 0).val = (i 0).val := by
  unfold DotDims.lhsIdx
  rw [dif_neg (show ¬(0 : Fin S64x4096.rank) ∈ dot_S64x4096_S4096x64_S64x64_1_0_0_1_n_n.lhsBatch by decide),
    dif_pos (show (0 : Fin S64x4096.rank) ∈ dot_S64x4096_S4096x64_S64x64_1_0_0_1_n_n.lhsNonContracting by decide)]
  rfl
theorem pv_lhs_1 (i : S64x64.Idx) (q : dot_S64x4096_S4096x64_S64x64_1_0_0_1_n_n.contr.Idx) : (dot_S64x4096_S4096x64_S64x64_1_0_0_1_n_n.lhsIdx i q 1).val = (q ⟨0, by decide⟩).val :=
  dot_S64x4096_S4096x64_S64x64_1_0_0_1_n_n.lhsIdx_val_of_single rfl i q
theorem pv_rhs_0 (i : S64x64.Idx) (q : dot_S64x4096_S4096x64_S64x64_1_0_0_1_n_n.contr.Idx) : (dot_S64x4096_S4096x64_S64x64_1_0_0_1_n_n.rhsIdx i q 0).val = (q ⟨0, by decide⟩).val :=
  dot_S64x4096_S4096x64_S64x64_1_0_0_1_n_n.rhsIdx_val_of_single rfl i q
theorem pv_rhs_1 (i : S64x64.Idx) (q : dot_S64x4096_S4096x64_S64x64_1_0_0_1_n_n.contr.Idx) : (dot_S64x4096_S4096x64_S64x64_1_0_0_1_n_n.rhsIdx i q 1).val = (i 1).val := by
  unfold DotDims.rhsIdx
  rw [dif_neg (show ¬(1 : Fin S4096x64.rank) ∈ dot_S64x4096_S4096x64_S64x64_1_0_0_1_n_n.rhsBatch by decide),
    dif_pos (show (1 : Fin S4096x64.rank) ∈ dot_S64x4096_S4096x64_S64x64_1_0_0_1_n_n.rhsNonContracting by decide)]
  rfl

/-- A chunk's attention against the chunk's value rows: entry `(b, d)` is the sum over the chunk's 4096 edges. -/
theorem pv_apply (p : FVec Ideal S64x4096 .bf16) (v : FVec Ideal S4096x64 .bf16) (b : Fin 64) (d : Fin 64) :
    matmul dot_S64x4096_S4096x64_S64x64_1_0_0_1_n_n none p v (constant S64x64 .f32 0x00000000#32) (ix2 b d)
      = ∑ j : Fin 4096, p (ix2 b j) * v (ix2 j d) := by
  simp only [matmul]
  rw [Ideal.matmul_constant_zero_apply, ← Equiv.sum_comp (contrEquiv1 dot_S64x4096_S4096x64_S64x64_1_0_0_1_n_n 4096 rfl rfl).symm]
  refine Finset.sum_congr rfl fun j _ => ?_
  have hk := contrEquiv1_symm_val dot_S64x4096_S4096x64_S64x64_1_0_0_1_n_n 4096 rfl rfl j
  have el : dot_S64x4096_S4096x64_S64x64_1_0_0_1_n_n.lhsIdx (ix2 b d) ((contrEquiv1 dot_S64x4096_S4096x64_S64x64_1_0_0_1_n_n 4096 rfl rfl).symm j) = ix2 b j :=
    funext fun a => Fin.ext (by
      match a with
      | ⟨0, _⟩ => exact pv_lhs_0 _ _
      | ⟨1, _⟩ => exact (pv_lhs_1 _ _).trans hk)
  have er : dot_S64x4096_S4096x64_S64x64_1_0_0_1_n_n.rhsIdx (ix2 b d) ((contrEquiv1 dot_S64x4096_S4096x64_S64x64_1_0_0_1_n_n 4096 rfl rfl).symm j) = ix2 j d :=
    funext fun a => Fin.ext (by
      match a with
      | ⟨0, _⟩ => exact (pv_rhs_0 _ _).trans hk
      | ⟨1, _⟩ => exact pv_rhs_1 _ _)
  rw [el, er]

/-! ## The layout operations of the body at an index -/

/-- A column `[64, 1]` spread over the 4096 positions of a chunk. -/
theorem bcastCol_apply {α : Type} (m : S64x1.Idx → α) (b : Fin 64) (j : Fin 4096) :
    broadcastTo S64x4096 m broadcasts_S64x1_S64x4096 (ix2 b j) = m (ix2 b 0) :=
  broadcastTo_apply _ _ _ (ix2 b 0) (fun a => by
    match a with
    | ⟨0, _⟩ => show b.val = if (64 : Nat) = 1 then 0 else b.val; rw [if_neg (by decide)]
    | ⟨1, _⟩ => show (0 : Nat) = if (1 : Nat) = 1 then 0 else j.val; rw [if_pos rfl])

/-- The chunk's segment ids `[1, 4096]` spread over the 64 rows. -/
theorem bcastRow_apply {α : Type} (v : S1x4096.Idx → α) (b : Fin 64) (j : Fin 4096) :
    broadcastTo S64x4096 v broadcasts_S1x4096_S64x4096 (ix2 b j) = v (ix2 0 j) :=
  broadcastTo_apply _ _ _ (ix2 0 j) (fun a => by
    match a with
    | ⟨0, _⟩ => show (0 : Nat) = if (1 : Nat) = 1 then 0 else b.val; rw [if_pos rfl]
    | ⟨1, _⟩ => show j.val = if (4096 : Nat) = 1 then 0 else j.val; rw [if_neg (by decide)])

/-- A vector `[64]` read as a column `[64, 1]`. -/
theorem col_apply {α : Type} (v : S64.Idx → α) (b : Fin 64) :
    shapeCast S64x1 v shapeCasts_S64_S64x1 (ix2 b 0) = v (ix1 b) :=
  shapeCast_apply _ _ (ix2 b 0) (ix1 b) (by
    rw [Shape.rowMajor_val_one, Shape.rowMajor_val_two]; show b.val = b.val * 1 + 0; omega)

/-- A block `[1, 4096, 64]` read as a matrix `[4096, 64]`. -/
theorem rows_apply {α : Type} (kc : S1x4096x64.Idx → α) (j : Fin 4096) (d : Fin 64) :
    shapeCast S4096x64 kc shapeCasts_S1x4096x64_S4096x64 (ix2 j d) = kc (ix3 0 j d) :=
  shapeCast_apply _ _ (ix2 j d) (ix3 0 j d) (by
    rw [Shape.rowMajor_val_three, Shape.rowMajor_val_two]
    show (0 * 4096 + j.val) * 64 + d.val = j.val * 64 + d.val; omega)

theorem lift_row (b : Fin 64) (j : Fin 4096) : reduces_S64x4096_S64.lift (ix1 b) j = ix2 b j :=
  funext fun a => Fin.ext (by match a with | ⟨0, _⟩ => rfl | ⟨1, _⟩ => rfl)

/-! ## The masked scores of a chunk, entry by entry -/

theorem scores_apply (q : FVec Ideal S64x64 .f32) (kc : Vec Ideal S1x4096x64 .f32) (bc : Vec Ideal S1x4096 .i32)
    (b : Fin 64) (j : Fin 4096) :
    scores q kc bc (ix2 b j) = Scalar.select (IntOp.cmpi .eq (bc (ix2 0 j)) (BitVec.ofNat 32 b.val))
      (∑ d : Fin 64, q (ix2 b d) * kc (ix3 0 j d)) ⊥ := by
  show Scalar.select (IntOp.cmpi .eq
      (broadcastTo S64x4096 (shapeCast S1x4096 (shapeCast S4096 bc shapeCasts_S1x4096_S4096) shapeCasts_S4096_S1x4096)
        broadcasts_S1x4096_S64x4096 (ix2 b j))
      (iota .tc S64x4096 32 [0] iota_S64x4096_d0_w32 (ix2 b j)))
    (matmul dot_S64x64_S4096x64_S64x4096_1_1_0_0_n_n (some .fp32) q (shapeCast S4096x64 kc shapeCasts_S1x4096x64_S4096x64)
      (constant S64x4096 .f32 0x00000000#32) (ix2 b j))
    (Named.named (F := Ideal) Cert.KernelIdeal.κ "neg_big" (φ := .f32) 0xFF333332#32) = _
  rw [qk_apply, bcastRow_apply, shapeCast_shapeCast, iota_single_apply, fill_eq]
  simp only [rows_apply]

/-! ## The steps of the two statistics at a row -/

theorem chunkMaxV_apply (X : FVec Ideal S64x4096 .f32) (b : Fin 64) :
    chunkMaxV X (ix2 b 0) = OnlineSoftmax.chunkMax (fun j : Fin 4096 => X (ix2 b j)) := by
  unfold chunkMaxV
  rw [col_apply]
  refine (Ideal.multiReduction_maximumf_single X _ reduces_S64x4096_S64 _ _ (ix1 b)).trans ?_
  have hf : (X ∘ reduces_S64x4096_S64.lift (ix1 b)) = (fun j : Fin 4096 => X (ix2 b j)) :=
    funext fun (j : Fin 4096) => congrArg X (lift_row b j)
  rw [hf, Ideal.ofBits_def, neg_inf]
  rfl

/-- The running maximum and running sum after a chunk, at row `b`, are one step of the online evaluation of the row. -/
theorem step_apply (m l : FVec Ideal S64x1 .f32) (X : FVec Ideal S64x4096 .f32) (b : Fin 64) :
    (mStep m X (ix2 b 0), lStep m l X (ix2 b 0))
      = OnlineSoftmax.step (m (ix2 b 0), l (ix2 b 0)) (fun j : Fin 4096 => X (ix2 b j)) := by
  have hm : mStep m X (ix2 b 0) = max (m (ix2 b 0)) (OnlineSoftmax.chunkMax (fun j : Fin 4096 => X (ix2 b j))) := by
    show max (m (ix2 b 0)) (chunkMaxV X (ix2 b 0)) = _
    rw [chunkMaxV_apply]
  have hl : lStep m l X (ix2 b 0) = l (ix2 b 0) * Ideal.exp (m (ix2 b 0) - mStep m X (ix2 b 0))
      + OnlineSoftmax.chunkSum (mStep m X (ix2 b 0)) (fun j : Fin 4096 => X (ix2 b j)) := by
    unfold lStep
    rw [addf_apply, mulf_apply, col_apply]
    refine congrArg₂ (· + ·) rfl ?_
    refine (Ideal.multiReduction_add_single _ _ reduces_S64x4096_S64 _ _ (ix1 b)).trans ?_
    unfold OnlineSoftmax.chunkSum
    refine Finset.sum_congr rfl fun (j : Fin 4096) _ => ?_
    rw [lift_row]
    show Ideal.exp (X (ix2 b j) - broadcastTo S64x4096 (mStep m X) broadcasts_S64x1_S64x4096 (ix2 b j)) = _
    rw [bcastCol_apply]
  unfold OnlineSoftmax.step
  rw [hl, hm]

/-- The attention of a chunk, entry by entry. -/
theorem attnChunk_apply (m l : FVec Ideal S64x1 .f32) (X : FVec Ideal S64x4096 .f32) (b : Fin 64) (j : Fin 4096) :
    attnChunk m l X (ix2 b j) = Ideal.div (Ideal.exp (X (ix2 b j) - m (ix2 b 0))) (l (ix2 b 0)) := by
  show Ideal.div (Ideal.exp (X (ix2 b j) - broadcastTo S64x4096 m broadcasts_S64x1_S64x4096 (ix2 b j)))
    (broadcastTo S64x4096 l broadcasts_S64x1_S64x4096 (ix2 b j)) = _
  rw [bcastCol_apply, bcastCol_apply]

/-- One step of the accumulator, entry by entry. -/
theorem accStep_apply (acc : FVec Ideal S64x64 .f32) (A : FVec Ideal S64x4096 .f32) (vc : Vec Ideal S1x4096x64 .f32)
    (b d : Fin 64) :
    accStep acc A vc (ix2 b d) = acc (ix2 b d) + ∑ j : Fin 4096, A (ix2 b j) * vc (ix3 0 j d) := by
  unfold accStep
  rw [addf_apply, pv_apply]
  refine congrArg₂ (· + ·) rfl (Finset.sum_congr rfl fun j _ => ?_)
  show A (ix2 b j) * shapeCast S4096x64 vc shapeCasts_S1x4096x64_S4096x64 (ix2 j d) = _
  rw [rows_apply]

end Cert.KernelIdeal.BlockValue

end
-- ==== Proof.Chunked.lean ====
/-
  A row of 32768 masked scores read as eight chunks of 4096: edge `e = 4096·c + j` is position `j` of chunk `c`.
  A sum over the row is the sum over the chunks of the sums within them; the online evaluation over the eight
  chunks ends at the row's maximum (from `⊥`) and at the sum over the row of `exp (x - maximum)`; and adding the
  chunks' partial sums one after the other onto `0` gives the sum over the row.
-/
import proofs.«141897_j76733885710388_2_alg».proof.Proof.OnlineSoftmax

noncomputable section

namespace OnlineSoftmax

open Idealize.ShloMosaic

/-- Position `j` of chunk `c` is edge `4096·c + j`. -/
def flat (c : Fin 8) (j : Fin 4096) : Fin 32768 := ⟨4096 * c.val + j.val, by omega⟩

/-- Chunk and position, and back. -/
def flatEquiv : Fin 8 × Fin 4096 ≃ Fin 32768 where
  toFun p := flat p.1 p.2
  invFun e := (⟨e.val / 4096, by omega⟩, ⟨e.val % 4096, by omega⟩)
  left_inv := fun ⟨c, j⟩ => Prod.ext (Fin.ext (by show (4096 * c.val + j.val) / 4096 = c.val; omega))
    (Fin.ext (by show (4096 * c.val + j.val) % 4096 = j.val; omega))
  right_inv := fun e => Fin.ext (by show 4096 * (e.val / 4096) + e.val % 4096 = e.val; omega)

/-- A sum over the edges is the sum over the chunks of the sums over their positions. -/
theorem sum_flat {M : Type*} [AddCommMonoid M] (g : Fin 32768 → M) :
    ∑ e, g e = ∑ c : Fin 8, ∑ j : Fin 4096, g (flat c j) := by
  rw [← flatEquiv.sum_comp g, Fintype.sum_prod_type]; rfl

/-- Chunk `c` of a row. -/
def chunk (x : Fin 32768 → EReal) (c : Fin 8) : Fin 4096 → EReal := fun j => x (flat c j)

/-- The eight chunks of a row, in order. -/
def chunks (x : Fin 32768 → EReal) : List (Fin 4096 → EReal) :=
  [chunk x 0, chunk x 1, chunk x 2, chunk x 3, chunk x 4, chunk x 5, chunk x 6, chunk x 7]

theorem chunk_mem_chunks (x : Fin 32768 → EReal) (c : Fin 8) : chunk x c ∈ chunks x := by
  fin_cases c <;> simp [chunks]

theorem exists_of_mem_chunks {x : Fin 32768 → EReal} {xc : Fin 4096 → EReal} (h : xc ∈ chunks x) :
    ∃ c, xc = chunk x c := by
  simp only [chunks, List.mem_cons, List.mem_nil_iff, or_false] at h
  rcases h with rfl | rfl | rfl | rfl | rfl | rfl | rfl | rfl
  exacts [⟨0, rfl⟩, ⟨1, rfl⟩, ⟨2, rfl⟩, ⟨3, rfl⟩, ⟨4, rfl⟩, ⟨5, rfl⟩, ⟨6, rfl⟩, ⟨7, rfl⟩]

/-- Every edge is a position of a chunk. -/
theorem eq_chunk_apply (x : Fin 32768 → EReal) (e : Fin 32768) :
    x e = chunk x ⟨e.val / 4096, by omega⟩ ⟨e.val % 4096, by omega⟩ :=
  congrArg x (flatEquiv.right_inv e).symm

/-- The online evaluation over the eight chunks of a row with no `⊤` entry ends at the row's maximum and at the sum of
    the exponentials of the entries less that maximum. -/
theorem inv_chunks (x : Fin 32768 → EReal) (hx : ∀ e, x e ≠ ⊤) : Inv (chunks x) (run (chunks x)) :=
  inv_run (chunks x) (fun xc hxc j => by
    obtain ⟨c, rfl⟩ := exists_of_mem_chunks hxc; exact hx _)

/-- … its maximum … -/
theorem run_chunks_max (x : Fin 32768 → EReal) (hx : ∀ e, x e ≠ ⊤) :
    (run (chunks x)).1 = Finset.univ.fold max ⊥ x :=
  le_antisymm
    ((inv_chunks x hx).lub _ fun xc hxc j => by
      obtain ⟨c, rfl⟩ := exists_of_mem_chunks hxc
      exact (Finset.le_fold_max _).mpr (Or.inr ⟨flat c j, Finset.mem_univ _, le_rfl⟩))
    ((Finset.fold_max_le _).mpr ⟨bot_le, fun e _ => by
      rw [eq_chunk_apply x e]; exact (inv_chunks x hx).ub _ (chunk_mem_chunks x _) _⟩)

/-- … and its sum. -/
theorem run_chunks_sum (x : Fin 32768 → EReal) (hx : ∀ e, x e ≠ ⊤) :
    (run (chunks x)).2 = ∑ e, Ideal.exp (x e - Finset.univ.fold max ⊥ x) := by
  rw [(inv_chunks x hx).sum, run_chunks_max x hx, sum_flat]
  simp only [chunks, List.map_cons, List.map_nil, List.sum_cons, List.sum_nil, add_zero, chunkSum, chunk,
    Fin.sum_univ_eight, add_assoc]

/-- Adding the chunks' partial sums one after the other onto `0` gives the sum over the row. -/
theorem acc_chunks (g : Fin 32768 → EReal) :
    ((((((((0 : EReal) + ∑ j, g (flat 0 j)) + ∑ j, g (flat 1 j)) + ∑ j, g (flat 2 j)) + ∑ j, g (flat 3 j))
      + ∑ j, g (flat 4 j)) + ∑ j, g (flat 5 j)) + ∑ j, g (flat 6 j)) + ∑ j, g (flat 7 j) = ∑ e, g e := by
  rw [sum_flat, Fin.sum_univ_eight, zero_add]

end OnlineSoftmax

end
-- ==== Proof.BlockFinal.lean ====
/-
  What the body leaves in its two output blocks, entry by entry, as functions of the four input blocks.

  Row `b` of the block has masked scores `row b e` over the 32768 edges. The eight chunks of scores the body
  computes are the eight chunks of that row, so the final running maximum and running sum at row `b` are the
  online evaluation of the row: its maximum and the sum of the exponentials less the maximum (no entry is `⊤`:
  queries and keys are real). Hence each stored attention entry is `exp (row b e - maximum) / sum`, and the
  accumulator, which adds the chunks' partial products onto zero, ends at the sum over all edges of attention times
  value.
-/
import proofs.«141897_j76733885710388_2_alg».proof.Proof.Words2
import proofs.«141897_j76733885710388_2_alg».proof.Proof.BlockValue
import proofs.«141897_j76733885710388_2_alg».proof.Proof.Chunked

set_option maxRecDepth 16384

noncomputable section

open Idealize.ShloMosaic Idealize.ShloMosaic.TcCoe Idealize.SL.Sem

namespace Cert.KernelIdeal.BlockValue

open Cert.KernelIdeal Cert.KernelIdeal.Gen Cert.KernelIdeal.Steps Idealize.ShloMosaic.ValueIdx
open OnlineSoftmax (flat chunk chunks)

variable (x0 : Vec Ideal S1x64x64 .f32) (x1 x2 : Vec Ideal S1x32768x64 .f32) (x3 : Vec Ideal S1x32768 .i32)

/-- The masked score of edge `e` for row `b` of the block. -/
def row (b : Fin 64) (e : Fin 32768) : EReal :=
  Scalar.select (IntOp.cmpi .eq (x3 (ix2 0 e)) (BitVec.ofNat 32 b.val)) (∑ d : Fin 64, x0 (ix3 0 b d) * x1 (ix3 0 e d)) ⊥

/-- The row's maximum, from `⊥`. -/
def rowMaxB (b : Fin 64) : EReal := Finset.univ.fold max ⊥ (row x0 x1 x3 b)

/-- The attention of row `b` on edge `e`. -/
def blockAttn (b : Fin 64) (e : Fin 32768) : EReal :=
  Ideal.div (Ideal.exp (row x0 x1 x3 b e - rowMaxB x0 x1 x3 b))
    (∑ e' : Fin 32768, Ideal.exp (row x0 x1 x3 b e' - rowMaxB x0 x1 x3 b))

/-- The output of row `b`, feature `d`. -/
def blockOut (b d : Fin 64) : EReal := ∑ e : Fin 32768, blockAttn x0 x1 x3 b e * x2 (ix3 0 e d)

/-! ## The loads of the body at an index -/

theorem Q_apply (b d : Fin 64) : Q x0 (ix2 b d) = x0 (ix3 0 b d) := by
  unfold Q k0_pay5
  exact shapeCast_apply _ _ (ix2 b d) (ix3 0 b d) (by
    rw [Shape.rowMajor_val_three, Shape.rowMajor_val_two]
    show (0 * 64 + b.val) * 64 + d.val = b.val * 64 + d.val; omega)

theorem rowsAt_apply (x : Vec Ideal S1x32768x64 .f32) (o : Nat) (h : o + 4096 ≤ 32768) (j : Fin 4096) (d : Fin 64)
    (e : Fin 32768) (he : e.val = o + j.val) : rowsAt x o h (ix3 0 j d) = x (ix3 0 e d) := by
  unfold rowsAt
  show x ((Rect.unit (s := S1x32768x64) ![0, o, 0] S1x4096x64.size (inb3 o h)).idx (ix3 0 j d)) = _
  refine congrArg x (funext fun a => Fin.ext ?_)
  match a with
  | ⟨0, _⟩ => show 0 + 1 * 0 = 0; omega
  | ⟨1, _⟩ => show o + 1 * j.val = e.val; omega
  | ⟨2, _⟩ => show 0 + 1 * d.val = d.val; omega

theorem segAt_apply (x : Vec Ideal S1x32768 .i32) (o : Nat) (h : o + 4096 ≤ 32768) (j : Fin 4096)
    (e : Fin 32768) (he : e.val = o + j.val) : segAt x o h (ix2 0 j) = x (ix2 0 e) := by
  unfold segAt
  show x ((Rect.unit (s := S1x32768) ![0, o] S1x4096.size (inb2 o h)).idx (ix2 0 j)) = _
  refine congrArg x (funext fun a => Fin.ext ?_)
  match a with
  | ⟨0, _⟩ => show 0 + 1 * 0 = 0; omega
  | ⟨1, _⟩ => show o + 1 * j.val = e.val; omega

/-- The masked scores of the chunk at edges `o …` are the row's entries there. -/
theorem scores_at (o : Nat) (h : o + 4096 ≤ 32768) (k : Fin 8) (hk : o = 4096 * k.val) (b : Fin 64) (j : Fin 4096) :
    scores (Q x0) (rowsAt x1 o h) (segAt x3 o h) (ix2 b j) = row x0 x1 x3 b (flat k j) := by
  have he : (flat k j).val = o + j.val := by show 4096 * k.val + j.val = o + j.val; omega
  rw [scores_apply, segAt_apply x3 o h j (flat k j) he]
  unfold row
  refine congrArg (fun s => Scalar.select _ s ⊥) (Finset.sum_congr rfl fun d _ => ?_)
  rw [Q_apply, rowsAt_apply x1 o h j d (flat k j) he]

theorem X0_chunk (b : Fin 64) : (fun j : Fin 4096 => X0 x0 x1 x3 (ix2 b j)) = chunk (row x0 x1 x3 b) 0 :=
  funext fun j => scores_at x0 x1 x3 0 (by omega) 0 (by decide) b j
theorem X1_chunk (b : Fin 64) : (fun j : Fin 4096 => X1 x0 x1 x3 (ix2 b j)) = chunk (row x0 x1 x3 b) 1 :=
  funext fun j => scores_at x0 x1 x3 4096 (by omega) 1 (by decide) b j
theorem X2_chunk (b : Fin 64) : (fun j : Fin 4096 => X2 x0 x1 x3 (ix2 b j)) = chunk (row x0 x1 x3 b) 2 :=
  funext fun j => scores_at x0 x1 x3 8192 (by omega) 2 (by decide) b j
theorem X3_chunk (b : Fin 64) : (fun j : Fin 4096 => X3 x0 x1 x3 (ix2 b j)) = chunk (row x0 x1 x3 b) 3 :=
  funext fun j => scores_at x0 x1 x3 12288 (by omega) 3 (by decide) b j
theorem X4_chunk (b : Fin 64) : (fun j : Fin 4096 => X4 x0 x1 x3 (ix2 b j)) = chunk (row x0 x1 x3 b) 4 :=
  funext fun j => scores_at x0 x1 x3 16384 (by omega) 4 (by decide) b j
theorem X5_chunk (b : Fin 64) : (fun j : Fin 4096 => X5 x0 x1 x3 (ix2 b j)) = chunk (row x0 x1 x3 b) 5 :=
  funext fun j => scores_at x0 x1 x3 20480 (by omega) 5 (by decide) b j
theorem X6_chunk (b : Fin 64) : (fun j : Fin 4096 => X6 x0 x1 x3 (ix2 b j)) = chunk (row x0 x1 x3 b) 6 :=
  funext fun j => scores_at x0 x1 x3 24576 (by omega) 6 (by decide) b j
theorem X7_chunk (b : Fin 64) : (fun j : Fin 4096 => X7 x0 x1 x3 (ix2 b j)) = chunk (row x0 x1 x3 b) 7 :=
  funext fun j => scores_at x0 x1 x3 28672 (by omega) 7 (by decide) b j

/-! ## The two statistics after the first pass -/

theorem M0_apply (b : Fin 64) : (M0 (F := Ideal)) (ix2 b 0) = (⊥ : EReal) := by
  unfold M0 k0_pay2
  rw [shapeCast_self]
  exact neg_inf

theorem L0_apply (b : Fin 64) : (L0 (F := Ideal)) (ix2 b 0) = (0 : EReal) := by
  unfold L0 k0_pay3
  rw [shapeCast_self]
  exact Ideal.ofBits_zero_f32

/-- At row `b` the final running maximum and running sum are the online evaluation of the row's eight chunks. -/
theorem stats_eq_run (b : Fin 64) :
    (M8 x0 x1 x3 (ix2 b 0), L8 x0 x1 x3 (ix2 b 0)) = OnlineSoftmax.run (chunks (row x0 x1 x3 b)) := by
  have s0 : ((M0 (F := Ideal)) (ix2 b 0), (L0 (F := Ideal)) (ix2 b 0)) = ((⊥ : EReal), (0 : EReal)) := by
    rw [M0_apply, L0_apply]
  have s1 : (M1 x0 x1 x3 (ix2 b 0), L1 x0 x1 x3 (ix2 b 0))
      = OnlineSoftmax.step ((M0 (F := Ideal)) (ix2 b 0), (L0 (F := Ideal)) (ix2 b 0)) (fun j : Fin 4096 => X0 x0 x1 x3 (ix2 b j)) :=
    step_apply (M0 (F := Ideal)) (L0 (F := Ideal)) (X0 x0 x1 x3) b
  rw [s0, X0_chunk] at s1
  have s2 : (M2 x0 x1 x3 (ix2 b 0), L2 x0 x1 x3 (ix2 b 0))
      = OnlineSoftmax.step (M1 x0 x1 x3 (ix2 b 0), L1 x0 x1 x3 (ix2 b 0)) (fun j : Fin 4096 => X1 x0 x1 x3 (ix2 b j)) :=
    step_apply (M1 x0 x1 x3) (L1 x0 x1 x3) (X1 x0 x1 x3) b
  rw [s1, X1_chunk] at s2
  have s3 : (M3 x0 x1 x3 (ix2 b 0), L3 x0 x1 x3 (ix2 b 0))
      = OnlineSoftmax.step (M2 x0 x1 x3 (ix2 b 0), L2 x0 x1 x3 (ix2 b 0)) (fun j : Fin 4096 => X2 x0 x1 x3 (ix2 b j)) :=
    step_apply (M2 x0 x1 x3) (L2 x0 x1 x3) (X2 x0 x1 x3) b
  rw [s2, X2_chunk] at s3
  have s4 : (M4 x0 x1 x3 (ix2 b 0), L4 x0 x1 x3 (ix2 b 0))
      = OnlineSoftmax.step (M3 x0 x1 x3 (ix2 b 0), L3 x0 x1 x3 (ix2 b 0)) (fun j : Fin 4096 => X3 x0 x1 x3 (ix2 b j)) :=
    step_apply (M3 x0 x1 x3) (L3 x0 x1 x3) (X3 x0 x1 x3) b
  rw [s3, X3_chunk] at s4
  have s5 : (M5 x0 x1 x3 (ix2 b 0), L5 x0 x1 x3 (ix2 b 0))
      = OnlineSoftmax.step (M4 x0 x1 x3 (ix2 b 0), L4 x0 x1 x3 (ix2 b 0)) (fun j : Fin 4096 => X4 x0 x1 x3 (ix2 b j)) :=
    step_apply (M4 x0 x1 x3) (L4 x0 x1 x3) (X4 x0 x1 x3) b
  rw [s4, X4_chunk] at s5
  have s6 : (M6 x0 x1 x3 (ix2 b 0), L6 x0 x1 x3 (ix2 b 0))
      = OnlineSoftmax.step (M5 x0 x1 x3 (ix2 b 0), L5 x0 x1 x3 (ix2 b 0)) (fun j : Fin 4096 => X5 x0 x1 x3 (ix2 b j)) :=
    step_apply (M5 x0 x1 x3) (L5 x0 x1 x3) (X5 x0 x1 x3) b
  rw [s5, X5_chunk] at s6
  have s7 : (M7 x0 x1 x3 (ix2 b 0), L7 x0 x1 x3 (ix2 b 0))
      = OnlineSoftmax.step (M6 x0 x1 x3 (ix2 b 0), L6 x0 x1 x3 (ix2 b 0)) (fun j : Fin 4096 => X6 x0 x1 x3 (ix2 b j)) :=
    step_apply (M6 x0 x1 x3) (L6 x0 x1 x3) (X6 x0 x1 x3) b
  rw [s6, X6_chunk] at s7
  have s8 : (M8 x0 x1 x3 (ix2 b 0), L8 x0 x1 x3 (ix2 b 0))
      = OnlineSoftmax.step (M7 x0 x1 x3 (ix2 b 0), L7 x0 x1 x3 (ix2 b 0)) (fun j : Fin 4096 => X7 x0 x1 x3 (ix2 b j)) :=
    step_apply (M7 x0 x1 x3) (L7 x0 x1 x3) (X7 x0 x1 x3) b
  rw [s7, X7_chunk] at s8
  exact s8

variable (h0 : ∀ i, ∃ r : ℝ, x0 i = (r : EReal)) (h1 : ∀ i, ∃ r : ℝ, x1 i = (r : EReal))

include h0 h1 in
/-- No masked score is `⊤`: a kept score is a finite sum of products of reals. -/
theorem row_ne_top (b : Fin 64) (e : Fin 32768) : row x0 x1 x3 b e ≠ ⊤ := by
  unfold row Scalar.select
  split
  · refine Finset.sum_induction _ (fun x : EReal => x ≠ ⊤) (fun _ _ => EReal.add_ne_top) EReal.zero_ne_top fun d _ => ?_
    obtain ⟨r, hr⟩ := h0 (ix3 0 b d)
    obtain ⟨s, hs⟩ := h1 (ix3 0 e d)
    rw [hr, hs, ← EReal.coe_mul]
    exact EReal.coe_ne_top _
  · exact bot_ne_top

include h0 h1 in
theorem M8_apply (b : Fin 64) : M8 x0 x1 x3 (ix2 b 0) = rowMaxB x0 x1 x3 b :=
  (congrArg Prod.fst (stats_eq_run x0 x1 x3 b)).trans
    (OnlineSoftmax.run_chunks_max _ (row_ne_top x0 x1 x3 h0 h1 b))

include h0 h1 in
theorem L8_apply (b : Fin 64) :
    L8 x0 x1 x3 (ix2 b 0) = ∑ e' : Fin 32768, Ideal.exp (row x0 x1 x3 b e' - rowMaxB x0 x1 x3 b) :=
  (congrArg Prod.snd (stats_eq_run x0 x1 x3 b)).trans
    (OnlineSoftmax.run_chunks_sum _ (row_ne_top x0 x1 x3 h0 h1 b))

/-! ## The attention block -/

include h0 h1 in
/-- A chunk's attention, entry by entry, is the row's attention at the chunk's edges. -/
theorem attn_at (X : FVec Ideal S64x4096 .f32) (k : Fin 8)
    (hX : ∀ b, (fun j : Fin 4096 => X (ix2 b j)) = chunk (row x0 x1 x3 b) k) (b : Fin 64) (j : Fin 4096) :
    attnChunk (M8 x0 x1 x3) (L8 x0 x1 x3) X (ix2 b j) = blockAttn x0 x1 x3 b (flat k j) := by
  rw [attnChunk_apply, M8_apply x0 x1 x3 h0 h1, L8_apply x0 x1 x3 h0 h1,
    show X (ix2 b j) = row x0 x1 x3 b (flat k j) from congrFun (hX b) j]
  rfl

include h0 h1 in
/-- The store of a chunk's attention at columns `o …` writes the block function's entries there. -/
theorem piece_ok (o : Nat) (h : o + 4096 ≤ 32768) (k : Fin 8) (hk : o = 4096 * k.val) (X : FVec Ideal S64x4096 .f32)
    (hX : ∀ b, (fun j : Fin 4096 => X (ix2 b j)) = chunk (row x0 x1 x3 b) k)
    (x : (Rect.unit (s := S1x64x32768) ![0, 0, o] S1x64x4096.size (inbO o h)).shape.Idx) :
    shapeCast S1x64x4096 (attnChunk (M8 x0 x1 x3) (L8 x0 x1 x3) X) shapeCasts_S64x4096_S1x64x4096 x
      = (fun y : S1x64x32768.Idx => blockAttn x0 x1 x3 (y 1) (y 2))
          ((Rect.unit (s := S1x64x32768) ![0, 0, o] S1x64x4096.size (inbO o h)).emb x) := by
  have hx0 : (x 0).val < 1 := (x 0).isLt
  obtain ⟨b, j, hb, hj⟩ : ∃ (b : Fin 64) (j : Fin 4096), (x 1).val = b.val ∧ (x 2).val = j.val :=
    ⟨⟨(x 1).val, (x 1).isLt⟩, ⟨(x 2).val, (x 2).isLt⟩, rfl, rfl⟩
  refine (shapeCast_apply _ _ x (ix2 b j) (by
      rw [Shape.rowMajor_val_two, Shape.rowMajor_val_three]
      show b.val * 4096 + j.val = ((x 0).val * 64 + (x 1).val) * 4096 + (x 2).val
      omega)).trans ((attn_at x0 x1 x3 h0 h1 X k hX b j).trans ?_)
  exact congrArg₂ (blockAttn x0 x1 x3)
    (Fin.ext (by show b.val = 0 + 1 * (x 1).val; omega))
    (Fin.ext (by show 4096 * k.val + j.val = o + 1 * (x 2).val; omega))

include h0 h1 in
/-- The eight stores together leave, at every entry of the attention block, the row's attention. -/
theorem canon5_apply (hc : ∀ y : S1x64x32768.Idx, ∃ p ∈ pieces5 x0 x1 x3, y ∈ p.1.set) (y : S1x64x32768.Idx) :
    View.canon (pieces5 x0 x1 x3) y = blockAttn x0 x1 x3 (y 1) (y 2) :=
  View.canon_apply_of_pieces (fun y : S1x64x32768.Idx => blockAttn x0 x1 x3 (y 1) (y 2)) (pieces5 x0 x1 x3) (by
    intro p hp
    simp only [pieces5, List.mem_cons, List.not_mem_nil, or_false] at hp
    rcases hp with rfl | rfl | rfl | rfl | rfl | rfl | rfl | rfl
    · exact piece_ok x0 x1 x3 h0 h1 28672 (by omega) 7 (by decide) (X7 x0 x1 x3) (X7_chunk x0 x1 x3)
    · exact piece_ok x0 x1 x3 h0 h1 24576 (by omega) 6 (by decide) (X6 x0 x1 x3) (X6_chunk x0 x1 x3)
    · exact piece_ok x0 x1 x3 h0 h1 20480 (by omega) 5 (by decide) (X5 x0 x1 x3) (X5_chunk x0 x1 x3)
    · exact piece_ok x0 x1 x3 h0 h1 16384 (by omega) 4 (by decide) (X4 x0 x1 x3) (X4_chunk x0 x1 x3)
    · exact piece_ok x0 x1 x3 h0 h1 12288 (by omega) 3 (by decide) (X3 x0 x1 x3) (X3_chunk x0 x1 x3)
    · exact piece_ok x0 x1 x3 h0 h1 8192 (by omega) 2 (by decide) (X2 x0 x1 x3) (X2_chunk x0 x1 x3)
    · exact piece_ok x0 x1 x3 h0 h1 4096 (by omega) 1 (by decide) (X1 x0 x1 x3) (X1_chunk x0 x1 x3)
    · exact piece_ok x0 x1 x3 h0 h1 0 (by omega) 0 (by decide) (X0 x0 x1 x3) (X0_chunk x0 x1 x3)) y (hc y)

/-! ## The output block -/

theorem A0_apply (b d : Fin 64) : (A0 (F := Ideal)) (ix2 b d) = (0 : EReal) := by
  unfold A0 k0_pay4
  rw [shapeCast_self]
  exact Ideal.ofBits_zero_f32

include h0 h1 in
/-- One step of the accumulator adds the chunk's share of the attention-weighted sum. -/
theorem acc_step_at (acc : FVec Ideal S64x64 .f32) (o : Nat) (h : o + 4096 ≤ 32768) (k : Fin 8) (hk : o = 4096 * k.val)
    (X : FVec Ideal S64x4096 .f32) (hX : ∀ b, (fun j : Fin 4096 => X (ix2 b j)) = chunk (row x0 x1 x3 b) k) (b d : Fin 64) :
    accStep acc (attnChunk (M8 x0 x1 x3) (L8 x0 x1 x3) X) (rowsAt x2 o h) (ix2 b d)
      = acc (ix2 b d) + ∑ j : Fin 4096, (fun e : Fin 32768 => blockAttn x0 x1 x3 b e * x2 (ix3 0 e d)) (flat k j) := by
  rw [accStep_apply]
  refine congrArg₂ (· + ·) rfl (Finset.sum_congr rfl fun j _ => ?_)
  rw [attn_at x0 x1 x3 h0 h1 X k hX, rowsAt_apply x2 o h j d (flat k j) (by show 4096 * k.val + j.val = o + j.val; omega)]

include h0 h1 in
/-- The last accumulator is the attention-weighted sum of the value rows. -/
theorem A8_apply (b d : Fin 64) : A8 x0 x1 x2 x3 (ix2 b d) = blockOut x0 x1 x2 x3 b d := by
  unfold blockOut
  rw [← OnlineSoftmax.acc_chunks (fun e : Fin 32768 => blockAttn x0 x1 x3 b e * x2 (ix3 0 e d))]
  have a0 : (A0 (F := Ideal)) (ix2 b d) = (0 : EReal) := A0_apply b d
  have a1 : A1 x0 x1 x2 x3 (ix2 b d) = _ :=
    acc_step_at x0 x1 x2 x3 h0 h1 (A0 (F := Ideal)) 0 (by omega) 0 (by decide) (X0 x0 x1 x3) (X0_chunk x0 x1 x3) b d
  rw [a0] at a1
  have a2 : A2 x0 x1 x2 x3 (ix2 b d) = _ :=
    acc_step_at x0 x1 x2 x3 h0 h1 (A1 x0 x1 x2 x3) 4096 (by omega) 1 (by decide) (X1 x0 x1 x3) (X1_chunk x0 x1 x3) b d
  rw [a1] at a2
  have a3 : A3 x0 x1 x2 x3 (ix2 b d) = _ :=
    acc_step_at x0 x1 x2 x3 h0 h1 (A2 x0 x1 x2 x3) 8192 (by omega) 2 (by decide) (X2 x0 x1 x3) (X2_chunk x0 x1 x3) b d
  rw [a2] at a3
  have a4 : A4 x0 x1 x2 x3 (ix2 b d) = _ :=
    acc_step_at x0 x1 x2 x3 h0 h1 (A3 x0 x1 x2 x3) 12288 (by omega) 3 (by decide) (X3 x0 x1 x3) (X3_chunk x0 x1 x3) b d
  rw [a3] at a4
  have a5 : A5 x0 x1 x2 x3 (ix2 b d) = _ :=
    acc_step_at x0 x1 x2 x3 h0 h1 (A4 x0 x1 x2 x3) 16384 (by omega) 4 (by decide) (X4 x0 x1 x3) (X4_chunk x0 x1 x3) b d
  rw [a4] at a5
  have a6 : A6 x0 x1 x2 x3 (ix2 b d) = _ :=
    acc_step_at x0 x1 x2 x3 h0 h1 (A5 x0 x1 x2 x3) 20480 (by omega) 5 (by decide) (X5 x0 x1 x3) (X5_chunk x0 x1 x3) b d
  rw [a5] at a6
  have a7 : A7 x0 x1 x2 x3 (ix2 b d) = _ :=
    acc_step_at x0 x1 x2 x3 h0 h1 (A6 x0 x1 x2 x3) 24576 (by omega) 6 (by decide) (X6 x0 x1 x3) (X6_chunk x0 x1 x3) b d
  rw [a6] at a7
  have a8 : A8 x0 x1 x2 x3 (ix2 b d) = _ :=
    acc_step_at x0 x1 x2 x3 h0 h1 (A7 x0 x1 x2 x3) 28672 (by omega) 7 (by decide) (X7 x0 x1 x3) (X7_chunk x0 x1 x3) b d
  rw [a7] at a8
  exact a8

include h0 h1 in
/-- What the body leaves in the output block, entry by entry. -/
theorem out4_apply (y : S1x64x64.Idx) :
    shapeCast S1x64x64 (A8 x0 x1 x2 x3) shapeCasts_S64x64_S1x64x64 y = blockOut x0 x1 x2 x3 (y 1) (y 2) := by
  have hy0 : (y 0).val < 1 := (y 0).isLt
  obtain ⟨b, d, hb, hd⟩ : ∃ (b d : Fin 64), (y 1).val = b.val ∧ (y 2).val = d.val :=
    ⟨⟨(y 1).val, (y 1).isLt⟩, ⟨(y 2).val, (y 2).isLt⟩, rfl, rfl⟩
  refine (shapeCast_apply _ _ y (ix2 b d) (by
      rw [Shape.rowMajor_val_two, Shape.rowMajor_val_three]
      show b.val * 64 + d.val = ((y 0).val * 64 + (y 1).val) * 64 + (y 2).val
      omega)).trans ((A8_apply x0 x1 x2 x3 h0 h1 b d).trans ?_)
  exact congrArg₂ (blockOut x0 x1 x2 x3) (Fin.ext hb.symm) (Fin.ext hd.symm)

end Cert.KernelIdeal.BlockValue

end
-- ==== Proof.AttnSpec.lean ====
/-
  The specification: segment-masked attention over the extended reals, index by index.

  For a head `h`, a graph (row) `b` and an edge `e`: the score is the inner product of query row `b` and key row
  `e`; it is kept where edge `e` belongs to graph `b` (its segment id equals `b`) and replaced by `⊥` elsewhere; the
  row's maximum is taken from `⊥`; the weight of `e` is `exp (masked score - maximum)`; the attention is the weight over
  the sum of the row's weights; the output is the attention-weighted sum of the value rows.
-/
import Idealize.ShloMosaic.PureOps.Ideal
import Idealize.ShloMosaic.Lib.ValueIdx

noncomputable section

namespace AttnSpec

open Idealize.ShloMosaic Idealize.ShloMosaic.ValueIdx

variable (q : (⟨3, ![16, 64, 64]⟩ : Shape).Idx → EReal) (k v : (⟨3, ![16, 32768, 64]⟩ : Shape).Idx → EReal)
  (seg : (⟨1, ![32768]⟩ : Shape).Idx → BitVec 32)

/-- The score of edge `e` for row `b` of head `h`: the inner product over the 64 features. -/
def score (h : Fin 16) (b : Fin 64) (e : Fin 32768) : EReal := ∑ d : Fin 64, q (ix3 h b d) * k (ix3 h e d)

/-- The score where edge `e`'s segment id is `b`, `⊥` elsewhere. -/
def masked (h : Fin 16) (b : Fin 64) (e : Fin 32768) : EReal :=
  Scalar.select (IntOp.cmpi .eq (seg (ix1 e)) (BitVec.ofNat 32 b.val)) (score q k h b e) ⊥

/-- The row's maximum, from `⊥`. -/
def rowMax (h : Fin 16) (b : Fin 64) : EReal := Finset.univ.fold max ⊥ (masked q k seg h b)

/-- The unnormalised weight of edge `e`. -/
def weight (h : Fin 16) (b : Fin 64) (e : Fin 32768) : EReal := Ideal.exp (masked q k seg h b e - rowMax q k seg h b)

/-- The attention of row `b` on edge `e`. -/
def attn (h : Fin 16) (b : Fin 64) (e : Fin 32768) : EReal :=
  Ideal.div (weight q k seg h b e) (∑ e', weight q k seg h b e')

/-- The output: the attention-weighted sum of the value rows. -/
def out (h : Fin 16) (b : Fin 64) (d : Fin 64) : EReal := ∑ e, attn q k seg h b e * v (ix3 h e d)

/-- The attention as an array `[16, 64, 32768]`. -/
def attnArr : (⟨3, ![16, 64, 32768]⟩ : Shape).Idx → EReal := fun i => attn q k seg (i 0) (i 1) (i 2)

/-- The output as an array `[16, 64, 64]`. -/
def outArr : (⟨3, ![16, 64, 64]⟩ : Shape).Idx → EReal := fun i => out q k v seg (i 0) (i 1) (i 2)

end AttnSpec

end
-- ==== Proof.ArrayValue.lean ====
/-
  From blocks to arrays. Grid point `t` is head `t`: every blocked window's block at `t` is slice `t` of
  its array along the head axis, and the segment ids' window is the whole (reshaped) array at every point. So what
  point `t` writes back is slice `t` of the specification's attention and output arrays, the sixteen slices cover
  both arrays, and after the run the two result arrays are the specification's.
-/
import proofs.«141897_j76733885710388_2_alg».proof.Proof.Gen.KernelIdeal.Value
import proofs.«141897_j76733885710388_2_alg».proof.Proof.BlockFinal
import proofs.«141897_j76733885710388_2_alg».proof.Proof.AttnSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.ArrValue

open Cert.KernelIdeal Cert.KernelIdeal.Gen Cert.KernelIdeal.Steps Cert.KernelIdeal.BlockValue Idealize.ShloMosaic.ValueIdx
open Idealize.ShloMosaic.Pipeline (Dat)

variable (m : (ℓ : Loc nD τ sig) → Buf (Elt Ideal) ℓ) (ρ : Dev nD → PrngReg)

/-- The printed index maps, decided over the sixteen grid points: a blocked window's block index is `(t, 0, 0)`, the
    segment ids' is `(0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The head of a grid point. -/
def head (t : Fin cfg0.N) : Fin 16 := ⟨t.val, lt_of_lt_of_eq t.isLt N_0⟩

/-- The query block at point `t` is slice `t` of the query array. -/
theorem iblk0_apply (c : Dev nD) (t : Fin cfg0.N) (b d : Fin 64) :
    iblk m c 0 t (ix3 0 b d) = V m c main_arg0 (ix3 (head t) b d) := by
  obtain ⟨⟨e0, e1, e2⟩, -⟩ := idx_facts t
  show V m c main_arg0 (((cfg0.win 0).blk t).view.emb (ix3 0 b d)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 64 + 1 * b.val = b.val; omega
  | ⟨2, _⟩ => show win0_0.index t (2 : Fin 3) * 64 + 1 * d.val = d.val; omega

/-- The key block at point `t` is slice `t` of the key array. -/
theorem iblk1_apply (c : Dev nD) (t : Fin cfg0.N) (e : Fin 32768) (d : Fin 64) :
    iblk m c 1 t (ix3 0 e d) = V m c main_arg1 (ix3 (head t) e d) := by
  obtain ⟨-, ⟨e0, e1, e2⟩, -⟩ := idx_facts t
  show V m c main_arg1 (((cfg0.win 1).blk t).view.emb (ix3 0 e d)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 32768 + 1 * e.val = e.val; omega
  | ⟨2, _⟩ => show win0_1.index t (2 : Fin 3) * 64 + 1 * d.val = d.val; omega

/-- The value block at point `t` is slice `t` of the value array. -/
theorem iblk2_apply (c : Dev nD) (t : Fin cfg0.N) (e : Fin 32768) (d : Fin 64) :
    iblk m c 2 t (ix3 0 e d) = V m c main_arg2 (ix3 (head t) e d) := by
  obtain ⟨-, -, ⟨e0, e1, e2⟩, -⟩ := idx_facts t
  show V m c main_arg2 (((cfg0.win 2).blk t).view.emb (ix3 0 e d)) = _
  refine congrArg (V m c main_arg2) (funext fun a => Fin.ext ?_)
  match a with
  | ⟨0, _⟩ => show win0_2.index t (0 : Fin 3) * 1 + 1 * 0 = t.val; omega
  | ⟨1, _⟩ => show win0_2.index t (1 : Fin 3) * 32768 + 1 * e.val = e.val; omega
  | ⟨2, _⟩ => show win0_2.index t (2 : Fin 3) * 64 + 1 * d.val = d.val; omega

/-- The segment ids' block at every point is the whole reshaped array. -/
theorem iblk3_apply (c : Dev nD) (t : Fin cfg0.N) (e : Fin 32768) :
    iblk m c 3 t (ix2 0 e) = V m c main_v0 (ix2 0 e) := by
  obtain ⟨-, -, -, ⟨e0, e1⟩, -⟩ := idx_facts t
  show V m c main_v0 (((cfg0.win 3).blk t).view.emb (ix2 0 e)) = _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 32768 + 1 * e.val = e.val; omega

/-- The host's reshape before the region: the segment ids as a `[1, 32768]` array. -/
theorem V_v0 (c : Dev nD) :
    (V m c main_v0 : S1x32768.Idx → BitVec 32)
      = shapeCast S1x32768 (m ((c : Thread nD τ).loc main_arg3)) shapeCasts_S32768_S1x32768 := by
  dsimp only [Gen.V, Gen.hostOps0]; after_results; rfl

theorem V_v0_apply (c : Dev nD) (e : Fin 32768) :
    V m c main_v0 (ix2 0 e) = m ((c : Thread nD τ).loc main_arg3) (ix1 e) := by
  have h := congrFun (V_v0 m c) (ix2 0 e)
  refine h.trans (shapeCast_apply _ _ (ix2 0 e) (ix1 e) (by
    rw [Shape.rowMajor_val_one, Shape.rowMajor_val_two]; show e.val = 0 * 32768 + e.val; omega))

/-! ## A point's blocks are the specification's slices -/

/-- The masked scores of row `b` of point `t`'s blocks are the specification's for head `t`. -/
theorem row_blk (c : Dev nD) (t : Fin cfg0.N) (b : Fin 64) :
    row (iblk m c 0 t) (iblk m c 1 t) (iblk m c 3 t) b
      = AttnSpec.masked (V m c main_arg0) (V m c main_arg1) (m ((c : Thread nD τ).loc main_arg3)) (head t) b := by
  funext e
  unfold row AttnSpec.masked AttnSpec.score
  rw [iblk3_apply, V_v0_apply]
  refine congrArg (fun s => Scalar.select _ s ⊥) (Finset.sum_congr rfl fun d _ => ?_)
  rw [iblk0_apply, iblk1_apply]

theorem attn_blk (c : Dev nD) (t : Fin cfg0.N) (b : Fin 64) (e : Fin 32768) :
    blockAttn (iblk m c 0 t) (iblk m c 1 t) (iblk m c 3 t) b e
      = AttnSpec.attn (V m c main_arg0) (V m c main_arg1) (m ((c : Thread nD τ).loc main_arg3)) (head t) b e := by
  unfold blockAttn rowMaxB
  rw [row_blk]
  rfl

theorem out_blk (c : Dev nD) (t : Fin cfg0.N) (b d : Fin 64) :
    blockOut (iblk m c 0 t) (iblk m c 1 t) (iblk m c 2 t) (iblk m c 3 t) b d
      = AttnSpec.out (V m c main_arg0) (V m c main_arg1) (V m c main_arg2) (m ((c : Thread nD τ).loc main_arg3)) (head t) b d := by
  unfold blockOut AttnSpec.out
  refine Finset.sum_congr rfl fun e _ => ?_
  rw [attn_blk, iblk2_apply]

variable (hA0 : ∀ (c : Dev nD) i, ∃ r : ℝ, m ((c : Thread nD τ).loc main_arg0) i = (r : EReal))
  (hA1 : ∀ (c : Dev nD) i, ∃ r : ℝ, m ((c : Thread nD τ).loc main_arg1) i = (r : EReal))

include hA0 in
theorem blk0_real (c : Dev nD) (t : Fin cfg0.N) : ∀ i, ∃ r : ℝ, iblk m c 0 t i = (r : EReal) := fun i => by
  show ∃ r : ℝ, V m c main_arg0 (((cfg0.win 0).blk t).view.emb i) = (r : EReal)
  rw [V_main_arg0]; exact hA0 c _

include hA1 in
theorem blk1_real (c : Dev nD) (t : Fin cfg0.N) : ∀ i, ∃ r : ℝ, iblk m c 1 t i = (r : EReal) := fun i => by
  show ∃ r : ℝ, V m c main_arg1 (((cfg0.win 1).blk t).view.emb i) = (r : EReal)
  rw [V_main_arg1]; exact hA1 c _

/-! ## A result array read through a point's block -/

/-- An array `[16, 64, 32768]` read through the attention window's block at point `t` is its slice `t`. -/
theorem read5_apply (G : S16x64x32768.Idx → EReal) (t : Fin cfg0.N)
    (y : ((cfg0.win 5).xblock (cfg0.grid.coords t)).Idx) (b : Fin 64) (e : Fin 32768)
    (hb : (y 1).val = b.val) (he : (y 2).val = e.val) :
    ((cfg0.win 5).blk t).view.read (Elt Ideal) G y = G (ix3 (head t) b e) := by
  obtain ⟨-, -, -, -, -, ⟨e0, e1, e2⟩⟩ := idx_facts t
  have hy0 : (y 0).val < 1 := (y 0).isLt
  show G (((cfg0.win 5).blk t).view.emb y) = _
  refine congrArg G (funext fun a => Fin.ext ?_)
  match a with
  | ⟨0, _⟩ => show win0_5.index t (0 : Fin 3) * 1 + 1 * (y 0).val = t.val; omega
  | ⟨1, _⟩ => show win0_5.index t (1 : Fin 3) * 64 + 1 * (y 1).val = b.val; omega
  | ⟨2, _⟩ => show win0_5.index t (2 : Fin 3) * 32768 + 1 * (y 2).val = e.val; omega

/-- An array `[16, 64, 64]` read through the output window's block at point `t` is its slice `t`. -/
theorem read4_apply (G : S16x64x64.Idx → EReal) (t : Fin cfg0.N)
    (y : ((cfg0.win 4).xblock (cfg0.grid.coords t)).Idx) (b d : Fin 64)
    (hb : (y 1).val = b.val) (hd : (y 2).val = d.val) :
    ((cfg0.win 4).blk t).view.read (Elt Ideal) G y = G (ix3 (head t) b d) := by
  obtain ⟨-, -, -, -, ⟨e0, e1, e2⟩, -⟩ := idx_facts t
  have hy0 : (y 0).val < 1 := (y 0).isLt
  show G (((cfg0.win 4).blk t).view.emb y) = _
  refine congrArg G (funext fun a => Fin.ext ?_)
  match a with
  | ⟨0, _⟩ => show win0_4.index t (0 : Fin 3) * 1 + 1 * (y 0).val = t.val; omega
  | ⟨1, _⟩ => show win0_4.index t (1 : Fin 3) * 64 + 1 * (y 1).val = b.val; omega
  | ⟨2, _⟩ => show win0_4.index t (2 : Fin 3) * 64 + 1 * (y 2).val = d.val; omega

/-- The specification's arrays at explicit coordinates. -/
theorem attnArr_ix3 (q : (⟨3, ![16, 64, 64]⟩ : Shape).Idx → EReal) (k : (⟨3, ![16, 32768, 64]⟩ : Shape).Idx → EReal)
    (seg : (⟨1, ![32768]⟩ : Shape).Idx → BitVec 32) (h : Fin 16) (b : Fin 64) (e : Fin 32768) :
    AttnSpec.attnArr q k seg (ix3 h b e) = AttnSpec.attn q k seg h b e := rfl

theorem outArr_ix3 (q : (⟨3, ![16, 64, 64]⟩ : Shape).Idx → EReal) (k v : (⟨3, ![16, 32768, 64]⟩ : Shape).Idx → EReal)
    (seg : (⟨1, ![32768]⟩ : Shape).Idx → BitVec 32) (h : Fin 16) (b d : Fin 64) :
    AttnSpec.outArr q k v seg (ix3 h b d) = AttnSpec.out q k v seg h b d := rfl

/-! ## What each point writes back -/

include hA0 hA1 in
/-- Point `t` writes back slice `t` of the specification's attention array. -/
theorem flushed5_eq (c : Dev nD) (t : Fin cfg0.N) :
    (dats m 0 c).flushed 5 t = ((cfg0.win 5).blk t).view.read (Elt Ideal)
      (AttnSpec.attnArr (V m c main_arg0) (V m c main_arg1) (m ((c : Thread nD τ).loc main_arg3))) := by
  rw [Value.flushed5_A, out5_eq]
  funext y
  have hy0 : (y 0).val < 1 := (y 0).isLt
  obtain ⟨b, e, hb, he⟩ : ∃ (b : Fin 64) (e : Fin 32768), (y 1).val = b.val ∧ (y 2).val = e.val :=
    ⟨⟨(y 1).val, (y 1).isLt⟩, ⟨(y 2).val, (y 2).isLt⟩, rfl, rfl⟩
  refine (canon5_apply (iblk m c 0 t) (iblk m c 1 t) (iblk m c 3 t) (blk0_real m hA0 c t) (blk1_real m hA1 c t)
    (pieces5_cover (iblk m c 0 t) (iblk m c 1 t) (iblk m c 2 t) (iblk m c 3 t) c (ms0_0 t) (hs0_0 t) (ms0_1 t) (hs0_1 t) (ms0_2 t) (hs0_2 t) (ms0_3 t) (hs0_3 t) scM0_0 scM0_1 scM0_2 (grid0.coords t) (ms0_4 t) (hs0_4 t) (ms0_5 t) (hs0_5 t) (Memref.isWhole_whole _) (Memref.isWhole_whole _) (Memref.isWhole_whole _)) ((cfg0.win 5).xinj (grid0.coords t) y)).trans ?_
  refine (congrArg₂ (blockAttn (iblk m c 0 t) (iblk m c 1 t) (iblk m c 3 t)) (Fin.ext hb) (Fin.ext he)).trans
    ((attn_blk m c t b e).trans ?_)
  exact (attnArr_ix3 (V m c main_arg0) (V m c main_arg1) (m ((c : Thread nD τ).loc main_arg3)) (head t) b e).symm.trans
    (read5_apply (AttnSpec.attnArr (V m c main_arg0) (V m c main_arg1) (m ((c : Thread nD τ).loc main_arg3))) t y b e hb he).symm

include hA0 hA1 in
/-- Point `t` writes back slice `t` of the specification's output array. -/
theorem flushed4_eq (c : Dev nD) (t : Fin cfg0.N) :
    (dats m 0 c).flushed 4 t = ((cfg0.win 4).blk t).view.read (Elt Ideal)
      (AttnSpec.outArr (V m c main_arg0) (V m c main_arg1) (V m c main_arg2) (m ((c : Thread nD τ).loc main_arg3))) := by
  rw [Value.flushed4_A, out4_eq]
  funext y
  have hy0 : (y 0).val < 1 := (y 0).isLt
  obtain ⟨b, d, hb, hd⟩ : ∃ (b d : Fin 64), (y 1).val = b.val ∧ (y 2).val = d.val :=
    ⟨⟨(y 1).val, (y 1).isLt⟩, ⟨(y 2).val, (y 2).isLt⟩, rfl, rfl⟩
  refine (out4_apply (iblk m c 0 t) (iblk m c 1 t) (iblk m c 2 t) (iblk m c 3 t) (blk0_real m hA0 c t) (blk1_real m hA1 c t)
    ((cfg0.win 4).xinj (grid0.coords t) y)).trans ?_
  refine (congrArg₂ (blockOut (iblk m c 0 t) (iblk m c 1 t) (iblk m c 2 t) (iblk m c 3 t)) (Fin.ext hb) (Fin.ext hd)).trans
    ((out_blk m c t b d).trans ?_)
  exact (outArr_ix3 (V m c main_arg0) (V m c main_arg1) (V m c main_arg2) (m ((c : Thread nD τ).loc main_arg3)) (head t) b d).symm.trans
    (read4_apply (AttnSpec.outArr (V m c main_arg0) (V m c main_arg1) (V m c main_arg2) (m ((c : Thread nD τ).loc main_arg3))) t y b d hb hd).symm

/-! ## The sixteen slices cover both arrays -/

theorem mem_blk5 (t : Fin cfg0.N) (i : S16x64x32768.Idx) :
    i ∈ ((cfg0.win 5).blk t).view.set ↔ ∀ a : Fin 3, win0_5.index t a * S1x64x32768.size a ≤ (i a).val
      ∧ (i a).val < win0_5.index t a * S1x64x32768.size a + S1x64x32768.size a := by
  show i ∈ ((View.whole main_v1_1).slice (win0_5.rect t)).set ↔ _
  rw [View.set_slice_whole, Rect.mem_set_unit]
  exact Iff.rfl

theorem mem_blk4 (t : Fin cfg0.N) (i : S16x64x64.Idx) :
    i ∈ ((cfg0.win 4).blk t).view.set ↔ ∀ a : Fin 3, win0_4.index t a * S1x64x64.size a ≤ (i a).val
      ∧ (i a).val < win0_4.index t a * S1x64x64.size a + S1x64x64.size a := by
  show i ∈ ((View.whole main_v1_0).slice (win0_4.rect t)).set ↔ _
  rw [View.set_slice_whole, Rect.mem_set_unit]
  exact Iff.rfl

theorem cover5 (i : S16x64x32768.Idx) :
    ∃ t : Fin cfg0.N, (cfg0.win 5).flush t = true ∧ i ∈ ((cfg0.win 5).blk t).view.set := by
  have hi0 : (i 0).val < 16 := (i 0).isLt
  have hi1 : (i 1).val < 64 := (i 1).isLt
  have hi2 : (i 2).val < 32768 := (i 2).isLt
  refine ⟨⟨(i 0).val, lt_of_lt_of_eq hi0 N_0.symm⟩, flush0_5 _, ?_⟩
  rw [mem_blk5]
  obtain ⟨-, -, -, -, -, ⟨e0, e1, e2⟩⟩ := idx_facts ⟨(i 0).val, lt_of_lt_of_eq hi0 N_0.symm⟩
  have e0 : win0_5.index ⟨(i 0).val, lt_of_lt_of_eq hi0 N_0.symm⟩ (0 : Fin 3) = (i 0).val := e0
  intro a
  match a with
  | ⟨0, _⟩ => show win0_5.index _ (0 : Fin 3) * 1 ≤ (i 0).val ∧ (i 0).val < win0_5.index _ (0 : Fin 3) * 1 + 1; rw [e0]; omega
  | ⟨1, _⟩ => show win0_5.index _ (1 : Fin 3) * 64 ≤ (i 1).val ∧ (i 1).val < win0_5.index _ (1 : Fin 3) * 64 + 64; rw [e1]; omega
  | ⟨2, _⟩ => show win0_5.index _ (2 : Fin 3) * 32768 ≤ (i 2).val ∧ (i 2).val < win0_5.index _ (2 : Fin 3) * 32768 + 32768; rw [e2]; omega

theorem cover4 (i : S16x64x64.Idx) :
    ∃ t : Fin cfg0.N, (cfg0.win 4).flush t = true ∧ i ∈ ((cfg0.win 4).blk t).view.set := by
  have hi0 : (i 0).val < 16 := (i 0).isLt
  have hi1 : (i 1).val < 64 := (i 1).isLt
  have hi2 : (i 2).val < 64 := (i 2).isLt
  refine ⟨⟨(i 0).val, lt_of_lt_of_eq hi0 N_0.symm⟩, flush0_4 _, ?_⟩
  rw [mem_blk4]
  obtain ⟨-, -, -, -, ⟨e0, e1, e2⟩, -⟩ := idx_facts ⟨(i 0).val, lt_of_lt_of_eq hi0 N_0.symm⟩
  have e0 : win0_4.index ⟨(i 0).val, lt_of_lt_of_eq hi0 N_0.symm⟩ (0 : Fin 3) = (i 0).val := e0
  intro a
  match a with
  | ⟨0, _⟩ => show win0_4.index _ (0 : Fin 3) * 1 ≤ (i 0).val ∧ (i 0).val < win0_4.index _ (0 : Fin 3) * 1 + 1; rw [e0]; omega
  | ⟨1, _⟩ => show win0_4.index _ (1 : Fin 3) * 64 ≤ (i 1).val ∧ (i 1).val < win0_4.index _ (1 : Fin 3) * 64 + 64; rw [e1]; omega
  | ⟨2, _⟩ => show win0_4.index _ (2 : Fin 3) * 64 ≤ (i 2).val ∧ (i 2).val < win0_4.index _ (2 : Fin 3) * 64 + 64; rw [e2]; omega

/-! ## The arrays after the run, and the run -/

include hA0 hA1 in
theorem final5 (c : Dev nD) : (dats m 0 c).arrAt 5 cfg0.N
    = AttnSpec.attnArr (m ((c : Thread nD τ).loc main_arg0)) (m ((c : Thread nD τ).loc main_arg1)) (m ((c : Thread nD τ).loc main_arg3)) := by
  rw [← V_main_arg0 m c, ← V_main_arg1 m c]
  exact (dats m 0 c).arrAt_eq_of_cover 5 _ (fun t _ => flushed5_eq m hA0 hA1 c t) cover5

include hA0 hA1 in
theorem final4 (c : Dev nD) : (dats m 0 c).arrAt 4 cfg0.N
    = AttnSpec.outArr (m ((c : Thread nD τ).loc main_arg0)) (m ((c : Thread nD τ).loc main_arg1)) (m ((c : Thread nD τ).loc main_arg2)) (m ((c : Thread nD τ).loc main_arg3)) := by
  rw [← V_main_arg0 m c, ← V_main_arg1 m c, ← V_main_arg2 m c]
  exact (dats m 0 c).arrAt_eq_of_cover 4 _ (fun t _ => flushed4_eq m hA0 hA1 c t) cover4

include hA0 hA1 in
/-- The run of the idealized kernel on real queries and keys: it terminates, the two results are the specification's
    output and attention arrays of the arguments, and the arguments are unchanged. -/
theorem run : θ_run defs (onTc (τ := τ) (main (F := Ideal))) ⟨m, fun _ => 0, ρ⟩ fun r => ∀ c : Dev nD,
      r.2.mem ((c : Thread nD τ).loc main_v1_0) = AttnSpec.outArr (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = AttnSpec.attnArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m hA0 hA1 c), (h c).2.1.trans (final5 m hA0 hA1 c), (h c).2.2⟩)
    (Value.run_blocks m ρ)

end Cert.KernelIdeal.ArrValue

end
-- ==== Proof.RefIsSpec.lean ====
/-
  The reference program read index by index: each stage of the masked softmax attention, at coordinates
  (head, row, edge), is the corresponding term of the specification.
-/
import proofs.«141897_j76733885710388_2_alg».proof.Proof.Gen.ReferenceIdeal.Read
import proofs.«141897_j76733885710388_2_alg».proof.Proof.AttnSpec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo

variable (x0 : (⟨S16x64x64, .f32⟩ : BufTy).Contents (Elt Ideal)) (x1 x2 : (⟨S16x32768x64, .f32⟩ : BufTy).Contents (Elt Ideal))
  (x3 : (⟨S32768, .i32⟩ : BufTy).Contents (Elt Ideal))

/-- The pattern of negative infinity denotes the bottom of the extended reals. -/
theorem neg_inf : Ideal.ofBits .f32 0xFF800000#32 = (⊥ : EReal) := by simp [Ideal.ofBits, Ideal.ieee]

/-- The mask at (h, b, e): edge `e`'s segment id compared with the row number `b`. -/
theorem mask_at (h : Fin 16) (b : Fin 64) (e : Fin 32768) :
    val_main_call0_v1 (F := Ideal) x3 (ix3 h b e) = IntOp.cmpi .eq (x3 (ix1 e)) (BitVec.ofNat 32 b.val) := by
  rw [val_main_call0_v1_apply, val_main_v7_apply, val_main_v5_apply, val_main_v3_apply, val_main_v0_apply,
    val_main_v4_apply, val_main_v2_apply, val_main_v1_apply]
  have e1 : idx_main_v0 (idx_main_v3 (idx_main_v7 (idx_main_call0_v1 (ix3 h b e)))) = ix1 e :=
    funext fun a => Fin.ext (by match a with | ⟨0, _⟩ => rfl)
  rw [e1]

/-- The score at (h, b, e) is the inner product of query row `b` and key row `e`. -/
theorem score_at (h : Fin 16) (b : Fin 64) (e : Fin 32768) :
    val_main_v6 (F := Ideal) x0 x1 (ix3 h b e) = AttnSpec.score x0 x1 h b e := by
  rw [val_main_v6_apply]
  unfold AttnSpec.score
  refine Finset.sum_congr rfl fun k _ => ?_
  have el : lidx_main_v6 (ix3 h b e) k = ix3 h b k :=
    funext fun a => Fin.ext (by match a with | ⟨0, _⟩ => rfl | ⟨1, _⟩ => rfl | ⟨2, _⟩ => rfl)
  have er : ridx_main_v6 (ix3 h b e) k = ix3 h e k :=
    funext fun a => Fin.ext (by match a with | ⟨0, _⟩ => rfl | ⟨1, _⟩ => rfl | ⟨2, _⟩ => rfl)
  rw [el, er]

/-- The masked score at (h, b, e). -/
theorem masked_at (h : Fin 16) (b : Fin 64) (e : Fin 32768) :
    val_main_v8 (F := Ideal) x0 x1 x3 (ix3 h b e) = AttnSpec.masked x0 x1 x3 h b e := by
  rw [val_main_v8_apply, mask_at, score_at, val_main_call0_v2_apply, val_main_call0_v0_apply, val_main_cst_apply,
    Ideal.ofBits_def, neg_inf]
  rfl

/-- The source index over (h, b) with the edge coordinate `e` inserted is (h, b, e). -/
theorem lift_at (hr : S16x64x32768.Reduces [2] S16x64) (h : Fin 16) (b : Fin 64) (e : Fin 32768) :
    hr.lift (ix2 h b) e = ix3 h b e :=
  funext fun a => Fin.ext (by match a with | ⟨0, _⟩ => rfl | ⟨1, _⟩ => rfl | ⟨2, _⟩ => rfl)

/-- The reduction by maximum at (h, b): the maximum, from bottom, of the row's masked scores. -/
theorem reduceMax_at (h : Fin 16) (b : Fin 64) :
    val_main_v9 (F := Ideal) x0 x1 x3 (ix2 h b) = AttnSpec.rowMax x0 x1 x3 h b := by
  have hr : S16x64x32768.Reduces [2] S16x64 := by decide
  unfold val_main_v9
  refine (Host.reduce_eq_fold_single (FloatOps.maximumf (F := Ideal) (φ := .f32)) (val_main_v8 (F := Ideal) x0 x1 x3)
    (val_main_cst_0 (F := Ideal)) reducesTo_S16x64x32768_S16x64_d2 hr h_S_ (ix2 h b)).trans ?_
  rw [val_main_cst_0_apply, Ideal.ofBits_def, neg_inf]
  have hf : (val_main_v8 (F := Ideal) x0 x1 x3 ∘ hr.lift (ix2 h b)) = (AttnSpec.masked x0 x1 x3 h b : Fin 32768 → EReal) :=
    funext fun (e : Fin 32768) =>
      (congrArg (val_main_v8 (F := Ideal) x0 x1 x3) (lift_at hr h b e)).trans (masked_at x0 x1 x3 h b e)
  rw [hf]
  rfl

/-- The row maximum at (h, b): the maximum with bottom changes nothing. -/
theorem rowMax_at (h : Fin 16) (b : Fin 64) :
    val_main_v11 (F := Ideal) x0 x1 x3 (ix2 h b) = AttnSpec.rowMax x0 x1 x3 h b := by
  rw [val_main_v11_apply, val_main_v10_apply, val_main_cst_1_apply, reduceMax_at, Ideal.ofBits_def, neg_inf,
    Ideal.maximumf_def]
  exact max_eq_right bot_le

/-- The unnormalised weight at (h, b, e). -/
theorem weight_at (h : Fin 16) (b : Fin 64) (e : Fin 32768) :
    val_main_v15 (F := Ideal) x0 x1 x3 (ix3 h b e) = AttnSpec.weight x0 x1 x3 h b e := by
  have e1 : idx_main_v12 (idx_main_v13 (ix3 h b e)) = ix2 h b :=
    funext fun a => Fin.ext (by match a with | ⟨0, _⟩ => rfl | ⟨1, _⟩ => rfl)
  rw [val_main_v15_apply, val_main_v14_apply, masked_at, val_main_v13_apply, val_main_v12_apply, e1, rowMax_at,
    Ideal.hostUnary_exp_def, Ideal.subf_def]
  rfl

/-- The normaliser at (h, b): the sum of the row's weights. -/
theorem norm_at (h : Fin 16) (b : Fin 64) :
    val_main_v16 (F := Ideal) x0 x1 x3 (ix2 h b) = ∑ e' : Fin 32768, AttnSpec.weight x0 x1 x3 h b e' := by
  rw [val_main_v16_apply, val_main_cst_2_apply, Ideal.ofBits_def, Ideal.ofBits_zero_f32, zero_add]
  refine Finset.sum_congr rfl fun k _ => ?_
  have e1 : idx_main_v16 (ix2 h b) k = ix3 h b k :=
    funext fun a => Fin.ext (by match a with | ⟨0, _⟩ => rfl | ⟨1, _⟩ => rfl | ⟨2, _⟩ => rfl)
  rw [e1, weight_at]

/-- The attention at (h, b, e). -/
theorem attn_at (h : Fin 16) (b : Fin 64) (e : Fin 32768) :
    val_main_v19 (F := Ideal) x0 x1 x3 (ix3 h b e) = AttnSpec.attn x0 x1 x3 h b e := by
  have e1 : idx_main_v17 (idx_main_v18 (ix3 h b e)) = ix2 h b :=
    funext fun a => Fin.ext (by match a with | ⟨0, _⟩ => rfl | ⟨1, _⟩ => rfl)
  rw [val_main_v19_apply, weight_at, val_main_v18_apply, val_main_v17_apply, e1, norm_at, Ideal.hostDivf_def]
  rfl

/-- The reference's attention array is the specification's. -/
theorem attn_eq (x0 : (⟨S16x64x64, .f32⟩ : BufTy).Contents (Elt Ideal)) (x1 : (⟨S16x32768x64, .f32⟩ : BufTy).Contents (Elt Ideal))
    (x3 : (⟨S32768, .i32⟩ : BufTy).Contents (Elt Ideal)) :
    Read.val_main_v19 (F := Ideal) x0 x1 x3 = AttnSpec.attnArr x0 x1 x3 := by
  funext i
  obtain ⟨h, b, e, rfl⟩ : ∃ (h : Fin 16) (b : Fin 64) (e : Fin 32768), i = ix3 h b e := ⟨i 0, i 1, i 2, eq_ix3 i⟩
  exact attn_at x0 x1 x3 h b e

/-- The reference's output array is the specification's. -/
theorem out_eq (x0 : (⟨S16x64x64, .f32⟩ : BufTy).Contents (Elt Ideal)) (x1 x2 : (⟨S16x32768x64, .f32⟩ : BufTy).Contents (Elt Ideal))
    (x3 : (⟨S32768, .i32⟩ : BufTy).Contents (Elt Ideal)) :
    Read.val_main_v20 (F := Ideal) x0 x1 x2 x3 = AttnSpec.outArr x0 x1 x2 x3 := by
  funext i
  obtain ⟨h, b, d, rfl⟩ : ∃ (h : Fin 16) (b : Fin 64) (d : Fin 64), i = ix3 h b d := ⟨i 0, i 1, i 2, eq_ix3 i⟩
  rw [val_main_v20_apply]
  show _ = ∑ e : Fin 32768, AttnSpec.attn x0 x1 x3 h b e * x2 (ix3 h e d)
  refine Finset.sum_congr rfl fun k _ => ?_
  have el : lidx_main_v20 (ix3 h b d) k = ix3 h b k :=
    funext fun a => Fin.ext (by match a with | ⟨0, _⟩ => rfl | ⟨1, _⟩ => rfl | ⟨2, _⟩ => rfl)
  have er : ridx_main_v20 (ix3 h b d) k = ix3 h k d :=
    funext fun a => Fin.ext (by match a with | ⟨0, _⟩ => rfl | ⟨1, _⟩ => rfl | ⟨2, _⟩ => rfl)
  rw [el, er, attn_at]

end Cert.ReferenceIdeal.RefValue

end
-- ==== Proof.FiniteInputs.lean ====
/-
  From the precondition to finiteness: the printed predicate says that every entry of the first two argument arrays has
  absolute value below plus infinity; an extended real with that property is a real number.
-/
import proofs.«141897_j76733885710388_2_alg».proof.Defs
import Idealize.ShloMosaic.Lib.ReduceAll
import Idealize.ShloMosaic.Lib.ValueIdx
import Idealize.ShloMosaic.PureOps.Ideal.Laws

noncomputable section

namespace Cert.FiniteInputs

open Idealize.ShloMosaic Idealize.SL.Sem Idealize.ShloMosaic.ValueIdx

/-- The scalar shape has one index. -/
instance : Subsingleton Cert.Pre_finite_inputs.S_.Idx := ⟨fun a b => funext fun d => d.elim0⟩

/-- The pattern of plus infinity denotes the top of the extended reals. -/
theorem pos_inf : Ideal.ofBits .f32 0x7F800000#32 = (⊤ : EReal) := by simp [Ideal.ofBits, Ideal.ieee]

/-- An extended real whose absolute value compares below plus infinity is a real number: at either infinity the absolute
    value is plus infinity itself. -/
theorem real_of_abs_lt (x : EReal)
    (h : Ideal.cmp .olt (max x (-x)) (Ideal.ofBits .f32 0x7F800000#32) = 1#1) : ∃ r : ℝ, x = (r : EReal) := by
  rw [pos_inf] at h
  induction x using EReal.rec with
  | bot => simp [Ideal.cmp] at h
  | coe r => exact ⟨r, rfl⟩
  | top => simp [Ideal.cmp] at h

theorem real_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h := congrFun (hpre c) ValueIdx.ix0
  dsimp only [Cert.Pre_finite_inputs.fn] at h
  have h2 : IntOp.andi (IntOp.andi _ _) _ = 1#1 := h
  obtain ⟨h01, _⟩ := IntOp.andi_eq_one.1 h2
  obtain ⟨h0, h1⟩ := IntOp.andi_eq_one.1 h01
  refine ⟨fun i => ?_, fun i => ?_⟩
  · exact real_of_abs_lt _ (Host.reduce_andi_all _ _ _ _ ix0 h0 i)
  · exact real_of_abs_lt _ (Host.reduce_andi_all _ _ _ _ ix0 h1 i)

end Cert.FiniteInputs

end
-- ==== Proof.lean ====
/-
  Segment-masked softmax attention, head by head: the kernel evaluates the softmax's two statistics online over
  eight chunks of 4096 edges (a running maximum, and a running sum rescaled by the exponential of the maximum's
  increase), then recomputes each chunk's scores, divides their exponentials by the final sum, stores that
  attention and accumulates attention times values; the reference masks with `-∞`, takes the row maximum,
  exponentiates, sums, divides, and multiplies by the values in one product.

  On the extended reals both are one function of the arguments (AttnSpec.lean). The kernel's side: the body's stores as
  closed terms (Steps, Words1, Words2), read entry by entry (BlockValue, BlockFinal) with the online evaluation's
  law (OnlineSoftmax, Chunked: `exp (x - m) · exp (m - m') = exp (x - m')` for `x ≤ m ≤ m' < ⊤`, where queries and keys
  being real keeps every score below `⊤`), then from blocks to arrays (ArrayValue). The reference's side: its
  operations read at an index (RefIsSpec). The kernel's mask fill is a finite literal that the certificate's table
  names `⊥`; the ledger's sixteen entries are that one statement.
-/
import proofs.«141897_j76733885710388_2_alg».proof.Defs
import proofs.«141897_j76733885710388_2_alg».proof.Proof.Gen.Kernel
import proofs.«141897_j76733885710388_2_alg».proof.Proof.Gen.Kernel.Skeleton
import proofs.«141897_j76733885710388_2_alg».proof.Proof.Gen.Kernel.Launch
import proofs.«141897_j76733885710388_2_alg».proof.Proof.Gen.Kernel.Points
import proofs.«141897_j76733885710388_2_alg».proof.Proof.Gen.Kernel.Frame
import proofs.«141897_j76733885710388_2_alg».proof.Proof.Gen.KernelIdeal
import proofs.«141897_j76733885710388_2_alg».proof.Proof.Gen.KernelIdeal.Skeleton
import proofs.«141897_j76733885710388_2_alg».proof.Proof.Gen.KernelIdeal.Launch
import proofs.«141897_j76733885710388_2_alg».proof.Proof.Gen.KernelIdeal.Points
import proofs.«141897_j76733885710388_2_alg».proof.Proof.Gen.KernelIdeal.Frame
import proofs.«141897_j76733885710388_2_alg».proof.Proof.Gen.ReferenceIdeal
import proofs.«141897_j76733885710388_2_alg».proof.Proof.Gen.Pre_finite_inputs
import proofs.«141897_j76733885710388_2_alg».proof.Proof.Gen.KernelIdeal.Value
import proofs.«141897_j76733885710388_2_alg».proof.Proof.Gen.ReferenceIdeal.Run
import proofs.«141897_j76733885710388_2_alg».proof.Proof.Gen.ReferenceIdeal.Read
import proofs.«141897_j76733885710388_2_alg».proof.Proof.ArrayValue
import proofs.«141897_j76733885710388_2_alg».proof.Proof.RefIsSpec
import proofs.«141897_j76733885710388_2_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference is a straight line of host operations: its run, with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The ledger: each of the sixteen chunk bodies fills its masked scores with the same literal, which the table names `⊥`. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

/-- On real queries and keys the idealized kernel and the idealized reference both run and end with the
    specification's output and attention arrays of their (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hA0 := fun c => (Cert.FiniteInputs.real_of_pre (hPre := Cert.Pre_finite_inputs.Gen.facts) m hpre c).1
  have hA1 := fun c => (Cert.FiniteInputs.real_of_pre (hPre := Cert.Pre_finite_inputs.Gen.facts) m hpre c).2
  refine ⟨_, _, Cert.KernelIdeal.ArrValue.run m ρ hA0 hA1, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v20_eq, Cert.ReferenceIdeal.RefValue.out_eq,
      (hagree c).1, (hagree c).2.1, (hagree c).2.2.1, (hagree c).2.2.2]
  · rw [(h c).2.1, Cert.ReferenceIdeal.Read.val_main_v19_eq, Cert.ReferenceIdeal.RefValue.attn_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
